-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64 .f32) (main_arg14 : FVec F S64x64 .f32) (main_arg15 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg14
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_v48 main_v49 main_v50

def fn_part1 {F : FTy → Type} [FloatOps F] (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x64 .f32) (main_arg1 : FVec F S800000x64 .f32) (main_arg2 : IVec S800000 32) (main_arg3 : IVec S800000 32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x64 : Shape := ⟨2, ![50000, 64]⟩
abbrev S800000x64 : Shape := ⟨2, ![800000, 64]⟩
abbrev S800000 : Shape := ⟨1, ![800000]⟩
abbrev S64x64 : Shape := ⟨2, ![64, 64]⟩
abbrev S64 : Shape := ⟨1, ![64]⟩
abbrev S1x64 : Shape := ⟨2, ![1, 64]⟩
abbrev S5000x64 : Shape := ⟨2, ![5000, 64]⟩
abbrev S_ : Shape := ⟨0, ![]⟩
abbrev S800000x1 : Shape := ⟨2, ![800000, 1]⟩
abbrev S8000x64 : Shape := ⟨2, ![8000, 64]⟩
abbrev S50000 : Shape := ⟨1, ![50000]⟩
abbrev S50000x1 : Shape := ⟨2, ![50000, 1]⟩
abbrev S5000x1 : Shape := ⟨2, ![5000, 1]⟩

abbrev nBuf : Space → Nat
  | .hbm => 57
  | .vmem => 30
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x64, .f32⟩
  | .hbm, ⟨17, _⟩ => ⟨S64x64, .f32⟩
  | .hbm, ⟨18, _⟩ => ⟨S1x64, .f32⟩
  | .hbm, ⟨19, _⟩ => ⟨S1x64, .f32⟩
  | .hbm, ⟨20, _⟩ => ⟨S50000x64, .bf16⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .bf16⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S1x64, .f32⟩
  | .hbm, ⟨35, _⟩ => ⟨S1x64, .f32⟩
  | .hbm, ⟨36, _⟩ => ⟨S1x64, .f32⟩
  | .hbm, ⟨37, _⟩ => ⟨S1x64, .f32⟩
  | .hbm, ⟨38, _⟩ => ⟨S800000x64, .bf16⟩
  | .hbm, ⟨39, _⟩ => ⟨S800000x64, .f32⟩
  | .hbm, ⟨40, _⟩ => ⟨S800000x64, .f32⟩
  | .hbm, ⟨41, _⟩ => ⟨S_, .f32⟩
  | .hbm, ⟨42, _⟩ => ⟨S800000, .f32⟩
  | .hbm, ⟨43, _⟩ => ⟨S_, .f32⟩
  | .hbm, ⟨44, _⟩ => ⟨S50000, .f32⟩
  | .hbm, ⟨45, _⟩ => ⟨S800000x1, .i32⟩
  | .hbm, ⟨46, _⟩ => ⟨S50000, .f32⟩
  | .hbm, ⟨47, _⟩ => ⟨S_, .f32⟩
  | .hbm, ⟨48, _⟩ => ⟨S50000x64, .f32⟩
  | .hbm, ⟨49, _⟩ => ⟨S800000x1, .i32⟩
  | .hbm, ⟨50, _⟩ => ⟨S50000x64, .f32⟩
  | .hbm, ⟨51, _⟩ => ⟨S_, .f32⟩
  | .hbm, ⟨52, _⟩ => ⟨S50000x64, .f32⟩
  | .hbm, ⟨53, _⟩ => ⟨S800000x1, .i32⟩
  | .hbm, ⟨54, _⟩ => ⟨S50000x64, .f32⟩
  | .hbm, ⟨55, _⟩ => ⟨S50000x1, .f32⟩
  | .hbm, ⟨56, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S5000x64, .bf16⟩
  | .local _ .vmem, ⟨7, _⟩ => ⟨S5000x64, .bf16⟩
  | .local _ .vmem, ⟨8, _⟩ => ⟨S8000x64, .f32⟩
  | .local _ .vmem, ⟨9, _⟩ => ⟨S8000x64, .f32⟩
  | .local _ .vmem, ⟨10, _⟩ => ⟨S8000x64, .bf16⟩
  | .local _ .vmem, ⟨11, _⟩ => ⟨S8000x64, .bf16⟩
  | .local _ .vmem, ⟨12, _⟩ => ⟨S64x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S8000x64, .bf16⟩
  | .local _ .vmem, ⟨21, _⟩ => ⟨S8000x64, .bf16⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x1, .f32⟩
  | .local _ .vmem, ⟨27, _⟩ => ⟨S5000x1, .f32⟩
  | .local _ .vmem, ⟨28, _⟩ => ⟨S5000x64, .f32⟩
  | .local _ .vmem, ⟨29, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst : Ref sig .tc := ⟨.hbm, 41, rfl⟩
abbrev main_v23 : Ref sig .tc := ⟨.hbm, 42, rfl⟩
abbrev main_cst_1 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg10_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem10_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S8000x64 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  packedbf16_S5000x64_S5000x64_0_0 : (Rect.unit (s := S5000x64) ![0, 0] S5000x64.size inb_S5000x64_S5000x64_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  inb_S8000x64_S8000x64_0_0 : ∀ a, (![0, 0] : Fin 2 → Nat) a + S8000x64.size a ≤ S8000x64.size a
  h_S8000x64 : 0 < S8000x64.numel
  broadcasts_S1x64_S8000x64 : S1x64.Broadcasts S8000x64
  shapeCasts_S8000x64_S8000x64 : S8000x64.ShapeCasts S8000x64
  packedbf16_S8000x64_S8000x64_0_0 : (Rect.unit (s := S8000x64) ![0, 0] S8000x64.size inb_S8000x64_S8000x64_0_0).PackedRows (EltTy.packing .bf16)
  bcast_S_S50000 : S_.BroadcastsInDim S50000 (![] : Fin 0 → Fin S50000.rank)
  bcast_S_S50000x64 : S_.BroadcastsInDim S50000x64 (![] : Fin 0 → Fin S50000x64.rank)
  bcast_S50000_S50000x1_0 : S50000.BroadcastsInDim S50000x1 (![0] : Fin 1 → Fin S50000x1.rank)
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  dot_S8000x64_S64x64_S8000x64_1_0_0_1_n_n_wf : DotDims.WF S8000x64 S64x64 S8000x64 [1] [0] [0] [1] [] []
  scatter_S50000_S800000x1_S800000_n_0_0_1_wf : ScatterDims.WF S50000 S800000x1 S800000 [] [0] [0] 1
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .bf16 = 32 ∨ (Rect.block (s := S50000x64) S5000x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S800000x64.size a
  hwx1_0 : ∀ i : grid1.Coords, EltTy.bits .f32 = 32 ∨ (Rect.block (s := S800000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S800000x64.size a
  hwx1_1 : ∀ i : grid1.Coords, EltTy.bits .bf16 = 32 ∨ (Rect.block (s := S800000x64) S8000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S8000x64.size a ≤ S800000x64.size a
  hwx1_10 : ∀ i : grid1.Coords, EltTy.bits .bf16 = 32 ∨ (Rect.block (s := S800000x64) S8000x64.size (cc1_transform_10 i) (hinb1_10 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v18) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v15) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v19) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v20) S8000x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v29) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v34) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S800000 : Shape := ⟨1, ![800000]⟩
abbrev S64x64 : Shape := ⟨2, ![64, 64]⟩
abbrev S64 : Shape := ⟨1, ![64]⟩
abbrev S_ : Shape := ⟨0, ![]⟩
abbrev S1x64 : Shape := ⟨2, ![1, 64]⟩
abbrev S800000x1 : Shape := ⟨2, ![800000, 1]⟩
abbrev S50000 : Shape := ⟨1, ![50000]⟩
abbrev S50000x1 : Shape := ⟨2, ![50000, 1]⟩

abbrev nBuf : Space → Nat
  | .hbm => 116
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S_, .f32⟩
  | .hbm, ⟨17, _⟩ => ⟨S50000x64, .f32⟩
  | .hbm, ⟨18, _⟩ => ⟨S50000x64, .i1⟩
  | .hbm, ⟨19, _⟩ => ⟨S_, .f32⟩
  | .hbm, ⟨20, _⟩ => ⟨S50000x64, .f32⟩
  | .hbm, ⟨21, _⟩ => ⟨S50000x64, .f32⟩
  | .hbm, ⟨22, _⟩ => ⟨S50000x64, .f32⟩
  | .hbm, ⟨23, _⟩ => ⟨S64x64, .f32⟩
  | .hbm, ⟨24, _⟩ => ⟨S50000x64, .f32⟩
  | .hbm, ⟨25, _⟩ => ⟨S1x64, .f32⟩
  | .hbm, ⟨26, _⟩ => ⟨S50000x64, .f32⟩
  | .hbm, ⟨27, _⟩ => ⟨S50000x64, .f32⟩
  | .hbm, ⟨28, _⟩ => ⟨S_, .f32⟩
  | .hbm, ⟨29, _⟩ => ⟨S50000x64, .f32⟩
  | .hbm, ⟨30, _⟩ => ⟨S50000x64, .i1⟩
  | .hbm, ⟨31, _⟩ => ⟨S_, .f32⟩
  | .hbm, ⟨32, _⟩ => ⟨S50000x64, .f32⟩
  | .hbm, ⟨33, _⟩ => ⟨S50000x64, .f32⟩
  | .hbm, ⟨34, _⟩ => ⟨S50000x64, .f32⟩
  | .hbm, ⟨35, _⟩ => ⟨S64x64, .f32⟩
  | .hbm, ⟨36, _⟩ => ⟨S50000x64, .f32⟩
  | .hbm, ⟨37, _⟩ => ⟨S1x64, .f32⟩
  | .hbm, ⟨38, _⟩ => ⟨S50000x64, .f32⟩
  | .hbm, ⟨39, _⟩ => ⟨S50000x64, .f32⟩
  | .hbm, ⟨40, _⟩ => ⟨S64x64, .f32⟩
  | .hbm, ⟨41, _⟩ => ⟨S800000x64, .f32⟩
  | .hbm, ⟨42, _⟩ => ⟨S1x64, .f32⟩
  | .hbm, ⟨43, _⟩ => ⟨S800000x64, .f32⟩
  | .hbm, ⟨44, _⟩ => ⟨S800000x64, .f32⟩
  | .hbm, ⟨45, _⟩ => ⟨S_, .f32⟩
  | .hbm, ⟨46, _⟩ => ⟨S800000x64, .f32⟩
  | .hbm, ⟨47, _⟩ => ⟨S800000x64, .f32⟩
  | .hbm, ⟨48, _⟩ => ⟨S64x64, .f32⟩
  | .hbm, ⟨49, _⟩ => ⟨S800000x64, .f32⟩
  | .hbm, ⟨50, _⟩ => ⟨S1x64, .f32⟩
  | .hbm, ⟨51, _⟩ => ⟨S800000x64, .f32⟩
  | .hbm, ⟨52, _⟩ => ⟨S800000x64, .f32⟩
  | .hbm, ⟨53, _⟩ => ⟨S_, .f32⟩
  | .hbm, ⟨54, _⟩ => ⟨S800000x64, .f32⟩
  | .hbm, ⟨55, _⟩ => ⟨S800000x64, .f32⟩
  | .hbm, ⟨56, _⟩ => ⟨S64x64, .f32⟩
  | .hbm, ⟨57, _⟩ => ⟨S800000x64, .f32⟩
  | .hbm, ⟨58, _⟩ => ⟨S1x64, .f32⟩
  | .hbm, ⟨59, _⟩ => ⟨S800000x64, .f32⟩
  | .hbm, ⟨60, _⟩ => ⟨S800000x64, .f32⟩
  | .hbm, ⟨61, _⟩ => ⟨S800000x64, .f32⟩
  | .hbm, ⟨62, _⟩ => ⟨S800000x64, .f32⟩
  | .hbm, ⟨63, _⟩ => ⟨S_, .f32⟩
  | .hbm, ⟨64, _⟩ => ⟨S800000x64, .f32⟩
  | .hbm, ⟨65, _⟩ => ⟨S800000x64, .f32⟩
  | .hbm, ⟨66, _⟩ => ⟨S_, .f32⟩
  | .hbm, ⟨67, _⟩ => ⟨S800000x64, .f32⟩
  | .hbm, ⟨68, _⟩ => ⟨S800000x64, .f32⟩
  | .hbm, ⟨69, _⟩ => ⟨S64x64, .f32⟩
  | .hbm, ⟨70, _⟩ => ⟨S800000x64, .f32⟩
  | .hbm, ⟨71, _⟩ => ⟨S1x64, .f32⟩
  | .hbm, ⟨72, _⟩ => ⟨S800000x64, .f32⟩
  | .hbm, ⟨73, _⟩ => ⟨S800000x64, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000x64, .f32⟩
  | .hbm, ⟨83, _⟩ => ⟨S800000x64, .f32⟩
  | .hbm, ⟨84, _⟩ => ⟨S800000x64, .f32⟩
  | .hbm, ⟨85, _⟩ => ⟨S800000x64, .f32⟩
  | .hbm, ⟨86, _⟩ => ⟨S_, .f32⟩
  | .hbm, ⟨87, _⟩ => ⟨S800000, .f32⟩
  | .hbm, ⟨88, _⟩ => ⟨S_, .f32⟩
  | .hbm, ⟨89, _⟩ => ⟨S50000, .f32⟩
  | .hbm, ⟨90, _⟩ => ⟨S800000x1, .i32⟩
  | .hbm, ⟨91, _⟩ => ⟨S50000, .f32⟩
  | .hbm, ⟨92, _⟩ => ⟨S_, .f32⟩
  | .hbm, ⟨93, _⟩ => ⟨S50000, .f32⟩
  | .hbm, ⟨94, _⟩ => ⟨S50000, .f32⟩
  | .hbm, ⟨95, _⟩ => ⟨S50000x1, .f32⟩
  | .hbm, ⟨96, _⟩ => ⟨S_, .f32⟩
  | .hbm, ⟨97, _⟩ => ⟨S50000x64, .f32⟩
  | .hbm, ⟨98, _⟩ => ⟨S800000x1, .i32⟩
  | .hbm, ⟨99, _⟩ => ⟨S50000x64, .f32⟩
  | .hbm, ⟨100, _⟩ => ⟨S50000x64, .f32⟩
  | .hbm, ⟨101, _⟩ => ⟨S50000x64, .f32⟩
  | .hbm, ⟨102, _⟩ => ⟨S_, .f32⟩
  | .hbm, ⟨103, _⟩ => ⟨S50000x64, .f32⟩
  | .hbm, ⟨104, _⟩ => ⟨S800000x1, .i32⟩
  | .hbm, ⟨105, _⟩ => ⟨S50000x64, .f32⟩
  | .hbm, ⟨106, _⟩ => ⟨S50000x64, .f32⟩
  | .hbm, ⟨107, _⟩ => ⟨S50000x64, .f32⟩
  | .hbm, ⟨108, _⟩ => ⟨S50000x64, .f32⟩
  | .hbm, ⟨109, _⟩ => ⟨S_, .f32⟩
  | .hbm, ⟨110, _⟩ => ⟨S50000x64, .f32⟩
  | .hbm, ⟨111, _⟩ => ⟨S50000x64, .f32⟩
  | .hbm, ⟨112, _⟩ => ⟨S_, .f32⟩
  | .hbm, ⟨113, _⟩ => ⟨S50000x64, .f32⟩
  | .hbm, ⟨114, _⟩ => ⟨S50000x64, .f32⟩
  | .hbm, ⟨115, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call2_cst : Ref sig .tc := ⟨.hbm, 45, rfl⟩
abbrev main_call2_v0 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call3_cst : Ref sig .tc := ⟨.hbm, 53, rfl⟩
abbrev main_call3_v0 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_3 : Ref sig .tc := ⟨.hbm, 63, rfl⟩
abbrev main_v39 : Ref sig .tc := ⟨.hbm, 64, rfl⟩
abbrev main_v40 : Ref sig .tc := ⟨.hbm, 65, rfl⟩
abbrev main_cst_4 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c : Ref sig .tc := ⟨.hbm, 74, rfl⟩
abbrev main_v48 : Ref sig .tc := ⟨.hbm, 75, rfl⟩
abbrev main_v49 : Ref sig .tc := ⟨.hbm, 76, rfl⟩
abbrev main_c_5 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_6 : Ref sig .tc := ⟨.hbm, 86, rfl⟩
abbrev main_v58 : Ref sig .tc := ⟨.hbm, 87, rfl⟩
abbrev main_cst_7 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_8 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_9 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_10 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_call4_cst : Ref sig .tc := ⟨.hbm, 109, rfl⟩
abbrev main_call4_v0 : Ref sig .tc := ⟨.hbm, 110, rfl⟩
abbrev main_v76 : Ref sig .tc := ⟨.hbm, 111, rfl⟩
abbrev main_cst_11 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩

abbrev nD : Nat := 1
abbrev τ : Topo := Topo.v7x

variable {F : FTy → Type} [FloatOps F]

class Facts₀ : Prop where
  bcast_S_S50000x64 : S_.BroadcastsInDim S50000x64 (![] : Fin 0 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  dot_S50000x64_S64x64_S50000x64_1_0_0_1_n_n_wf : DotDims.WF S50000x64 S64x64 S50000x64 [1] [0] [0] [1] [] []
  dot_S800000x64_S64x64_S800000x64_1_0_0_1_n_n_wf : DotDims.WF S800000x64 S64x64 S800000x64 [1] [0] [0] [1] [] []
  gather_S50000x64_S800000x1_S800000x64_1_0_n_n_0_1_164_wf : GatherDims.WF S50000x64 S800000x1 S800000x64 [1] [0] [] [0] [] 1 ![1, 64]
  scatter_S50000_S800000x1_S800000_n_0_0_1_wf : ScatterDims.WF S50000 S800000x1 S800000 [] [0] [0] 1
  scatter_S50000x64_S800000x1_S800000x64_1_0_0_1_wf : ScatterDims.WF S50000x64 S800000x1 S800000x64 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The run of the whole program with the result kept.

  The program is three kernel regions among three stretches of host operations. Run from any memory, every weakly fair
  execution terminates, nothing faulting, and every final state holds, at each buffer that is not scoped to a region,
  the contents the last boundary of the run assigns to it: the fold `W6` of the host stretches and of the regions'
  write-backs over the launch memory (`run_boundary`). Read at the result buffer and at the sixteen argument buffers
  this gives the result as `W6` at the result's buffer and the arguments as launched (`run_result`).
-/
import proofs.«122761_j52123723105097_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with every unscoped buffer at the last boundary's contents. -/
theorem run_boundary : θ_run defs (onTc (τ := τ) (main (F := F))) ⟨m, fun _ => 0, ρ⟩
    (fun r => ∀ c : Dev nD, ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The same run read at the result and at the arguments: the result buffer ends at the last boundary's contents,
    the argument buffers as launched. -/
theorem run_result : θ_run defs (onTc (τ := τ) (main (F := F))) ⟨m, fun _ => 0, ρ⟩ (fun r => ∀ c : Dev nD,
      r.2.mem ((c.tc : Thread nD τ).loc main_v34) = W6 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨h c _ (mem_uc main_v34 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c),
     (h c _ (mem_uc main_arg14 (by decide))).trans (W6_main_arg14 m ρ c),
     (h c _ (mem_uc main_arg15 (by decide))).trans (W6_main_arg15 m ρ c)⟩)
    (run_boundary m ρ)

end Cert.KernelIdeal.Run

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.LibBcastChain.lean ====
/-
  A vector spread over a matrix by two `broadcast_in_dim`s, read at an index.

  jnp spreads a per-row vector `d : [n]` over an `[n, c]` array as `[n] → [n,1]` (dims = [0]) then `[n,1] → [n,c]`
  (dims = [0,1]), and a per-column vector `b : [c]` as `[c] → [1,c]` (dims = [1]) then `[1,c] → [n,c]` (dims = [0,1]).
  Read at `(p, q)` the first is `d[p]` and the second `b[q]`; a scalar spread over any shape (dims = []) reads the scalar
  everywhere. Stated over literal-extent index constructors, for any extents (a unit extent included).
-/
import Idealize.ShloMosaic.Lib.Pipeline.Value
import Idealize.ShloMosaic.Lib.ValueIdx

noncomputable section

namespace Cert.Lib.BcastChain

open Idealize.ShloMosaic Idealize.ShloMosaic.ValueIdx

variable {α : Type}

/-- A vector spread over the columns by `[n] → [n,1] → [n,c]` reads, at `(p, q)`, its entry `p`. -/
theorem overCols_apply {n c : ℕ} (d : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, c]⟩ ![0, 1]) (p : Fin n) (q : Fin c) :
    broadcastInDim ⟨2, ![n, c]⟩ ![0, 1] h2 (broadcastInDim ⟨2, ![n, 1]⟩ ![0] h1 d) (ix2 p q) = d (ix1 p) := by
  rw [broadcastInDim_apply ![0, 1] h2 _ (ix2 p q) (ix2 p (0 : Fin 1)) (fun a => by
    match a with
    | ⟨0, _⟩ =>
      show p.val = if n = 1 then 0 else p.val
      split
      · have := p.isLt; omega
      · rfl
    | ⟨1, _⟩ => show 0 = if (1 : ℕ) = 1 then 0 else q.val; rw [if_pos rfl])]
  exact broadcastInDim_apply ![0] h1 d (ix2 p (0 : Fin 1)) (ix1 p) (fun a => by
    match a with
    | ⟨0, _⟩ =>
      show p.val = if n = 1 then 0 else p.val
      split
      · have := p.isLt; omega
      · rfl)

/-- A vector spread over the rows by `[c] → [1,c] → [n,c]` reads, at `(p, q)`, its entry `q`. -/
theorem overRows_apply {n c : ℕ} (b : (⟨1, ![c]⟩ : Shape).Idx → α)
    (h3 : (⟨1, ![c]⟩ : Shape).BroadcastsInDim ⟨2, ![1, c]⟩ ![1])
    (h4 : (⟨2, ![1, c]⟩ : Shape).BroadcastsInDim ⟨2, ![n, c]⟩ ![0, 1]) (p : Fin n) (q : Fin c) :
    broadcastInDim ⟨2, ![n, c]⟩ ![0, 1] h4 (broadcastInDim ⟨2, ![1, c]⟩ ![1] h3 b) (ix2 p q) = b (ix1 q) := by
  rw [broadcastInDim_apply ![0, 1] h4 _ (ix2 p q) (ix2 (0 : Fin 1) q) (fun a => by
    match a with
    | ⟨0, _⟩ => show 0 = if (1 : ℕ) = 1 then 0 else p.val; rw [if_pos rfl]
    | ⟨1, _⟩ =>
      show q.val = if c = 1 then 0 else q.val
      split
      · have := q.isLt; omega
      · rfl)]
  exact broadcastInDim_apply ![1] h3 b (ix2 (0 : Fin 1) q) (ix1 q) (fun a => by
    match a with
    | ⟨0, _⟩ =>
      show q.val = if c = 1 then 0 else q.val
      split
      · have := q.isLt; omega
      · rfl)

/-- A scalar spread over any shape reads the scalar everywhere. -/
theorem overAll_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 (fun a => a.elim0)

end Cert.Lib.BcastChain

end
-- ==== Proof.LibBiasRect.lean ====
/-
  A bias row added to every row of an array, then rectified (`relu (a + b)`), on the extended reals, for any extents.

  `biasRect a b` is the array whose entry `(p, q)` is `max (a[p,q] + b[0,q]) 0` for a one-row bias `b : [1, c]`;
  `rectified a b` is the same with the bias a vector `b : [c]`. A block of rows of `biasRect a b` is `biasRect` of that
  block of `a` with the same bias row (`biasRect_congr`). The vector form is reached from the row form when the row
  is a recast vector (`biasRect_cast`), and it is what the host spells as a `maximum` of a sum with the vector spread
  `[c] → [1, c] → [n, c]` against a spread zero (`host_rectified`). The zero stays the word `0x00000000` read as a float.
-/
import Idealize.ShloMosaic.Lib.ValueIdx
import Idealize.ShloMosaic.Lib.ValueLayout
import Idealize.ShloMosaic.PureOps.Ideal.Laws
import proofs.«122761_j52123723105097_2_alg».proof.Proof.LibBcastChain

noncomputable section

namespace Cert.Lib.BiasRect

open Idealize.ShloMosaic Idealize.ShloMosaic.ValueIdx

/-- A one-row bias added to every row, then the maximum with zero: entry `(p, q)` is `max (a[p,q] + b[0,q]) 0`. -/
def biasRect {n c : ℕ} (a : (⟨2, ![n, c]⟩ : Shape).Idx → EReal) (b : (⟨2, ![1, c]⟩ : Shape).Idx → EReal) :
    (⟨2, ![n, c]⟩ : Shape).Idx → EReal :=
  fun j => max (a j + b (ix2 (0 : Fin 1) (j 1))) (Ideal.ofBits .f32 0x00000000#32)

/-- The same with the bias a vector: entry `(p, q)` is `max (a[p,q] + b[q]) 0`. -/
def rectified {n c : ℕ} (a : (⟨2, ![n, c]⟩ : Shape).Idx → EReal) (b : (⟨1, ![c]⟩ : Shape).Idx → EReal) :
    (⟨2, ![n, c]⟩ : Shape).Idx → EReal :=
  fun j => max (a j + b (ix1 (j 1))) (Ideal.ofBits .f32 0x00000000#32)

/-- Two such arrays agree at two indices when the entries read there agree: the array's entry and the bias entry of
    the same column. In particular a block of rows of `biasRect a b` is `biasRect` of the block with the same bias. -/
theorem biasRect_congr {n n' c c' : ℕ} (a : (⟨2, ![n, c]⟩ : Shape).Idx → EReal) (b : (⟨2, ![1, c]⟩ : Shape).Idx → EReal)
    (a' : (⟨2, ![n', c']⟩ : Shape).Idx → EReal) (b' : (⟨2, ![1, c']⟩ : Shape).Idx → EReal)
    (j' : (⟨2, ![n', c']⟩ : Shape).Idx) (j : (⟨2, ![n, c]⟩ : Shape).Idx)
    (ha : a' j' = a j) (hb : b' (ix2 (0 : Fin 1) (j' 1)) = b (ix2 (0 : Fin 1) (j 1))) :
    biasRect a' b' j' = biasRect a b j := by
  unfold biasRect
  rw [ha, hb]

/-- With the bias row a recast vector the row form is the vector form. -/
theorem biasRect_cast {n c : ℕ} (a : (⟨2, ![n, c]⟩ : Shape).Idx → EReal) (b : (⟨1, ![c]⟩ : Shape).Idx → EReal)
    (h : (⟨1, ![c]⟩ : Shape).ShapeCasts ⟨2, ![1, c]⟩) :
    biasRect a (shapeCast ⟨2, ![1, c]⟩ b h) = rectified a b := by
  funext j
  unfold biasRect rectified
  rw [shapeCast_a_1a_apply b h (0 : Fin 1) (j 1)]

/-- The host's spelling: the vector spread over the rows by two `broadcast_in_dim`s, added, and the maximum taken with
    a zero spread from a scalar. -/
theorem host_rectified {n c : ℕ} (a : FVec Ideal ⟨2, ![n, c]⟩ .f32) (b : FVec Ideal ⟨1, ![c]⟩ .f32)
    (h3 : (⟨1, ![c]⟩ : Shape).BroadcastsInDim ⟨2, ![1, c]⟩ ![1])
    (h4 : (⟨2, ![1, c]⟩ : Shape).BroadcastsInDim ⟨2, ![n, c]⟩ ![0, 1])
    (h0 : (⟨0, ![]⟩ : Shape).BroadcastsInDim ⟨2, ![n, c]⟩ ![]) :
    maximumf (addf a (broadcastInDim ⟨2, ![n, c]⟩ ![0, 1] h4 (broadcastInDim ⟨2, ![1, c]⟩ ![1] h3 b)))
      (broadcastInDim ⟨2, ![n, c]⟩ ![] h0 (constant (F := Ideal) ⟨0, ![]⟩ .f32 0x00000000#32)) = rectified a b := by
  funext j
  obtain ⟨p, q, rfl⟩ : ∃ (p : Fin n) (q : Fin c), j = ix2 p q := ⟨j 0, j 1, eq_ix2 j⟩
  rw [maximumf_apply, addf_apply, Cert.Lib.BcastChain.overRows_apply b h3 h4 p q,
    Cert.Lib.BcastChain.overAll_apply _ _ h0 (ix2 p q), constant_apply]
  rfl

end Cert.Lib.BiasRect

end
-- ==== Proof.LibSigRows.lean ====
/-
  A squashed layer output `sigmoid (agg + b)` on the extended reals, and its two spellings.

  For an [n, c] array `agg` and a [1, c] row `b`, `sigRows agg b` is the array whose entry `(p, q)` is
  `logistic (agg[p,q] + b[0,q])`, where `logistic x = 1 / (1 + e^(-x))` with `logistic ⊥ = 0` and `logistic ⊤ = 1`
  (a kernel's `tpu.logistic` of a block plus a bias row broadcast over the block's rows reads so entry by entry).
  A host program that spreads the bias VECTOR over the rows ([c] → [1, c] → [n, c]), adds, and spells the logistic
  function out as `1 / (1 + exp (-x))` with the ones spread from a scalar computes the same array: on the extended
  reals `logistic x` IS `div 1 (1 + exp (-x))`, the f32 word 0x3F800000 is the real one, and both ways of placing the
  bias read `b[q]` (`sigRows_eq_spelt`, with the bias row given as the vector recast to [1, c]).
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.Sig

open Idealize.ShloMosaic Idealize.ShloMosaic.ValueIdx

/-- Entry `(p, q)` is `logistic (agg[p,q] + b[0,q])`. -/
def sigRows {n c : ℕ} (agg : (⟨2, ![n, c]⟩ : Shape).Idx → EReal) (b : (⟨2, ![1, c]⟩ : Shape).Idx → EReal) :
    (⟨2, ![n, c]⟩ : Shape).Idx → EReal :=
  fun i => Ideal.logistic (agg i + b (ix2 (0 : Fin 1) (i 1)))
/-- Spreading a vector over the rows of a matrix in two steps, [c] → [1, c] (dimension 1) → [n, c] (dimensions 0, 1),
    reads the vector at the column. -/
theorem spread_apply {n c : ℕ} (b : (⟨1, ![c]⟩ : Shape).Idx → EReal)
    (h1 : (⟨1, ![c]⟩ : Shape).BroadcastsInDim ⟨2, ![1, c]⟩ ![1])
    (h01 : (⟨2, ![1, c]⟩ : Shape).BroadcastsInDim ⟨2, ![n, c]⟩ ![0, 1]) (p : Fin n) (q : Fin c) :
    broadcastInDim ⟨2, ![n, c]⟩ ![0, 1] h01 (broadcastInDim ⟨2, ![1, c]⟩ ![1] h1 b) (ix2 p q) = b (ix1 q) := by
  rw [broadcastInDim_apply ![0, 1] h01 _ (ix2 p q) (ix2 (0 : Fin 1) q) (fun a => by
    match a with
    | ⟨0, _⟩ => rfl
    | ⟨1, _⟩ =>
      show q.val = if c = 1 then 0 else q.val
      split
      · have := q.isLt; omega
      · rfl)]
  exact broadcastInDim_apply ![1] h1 b (ix2 (0 : Fin 1) q) (ix1 q) (fun a => by
    match a with
    | ⟨0, _⟩ =>
      show q.val = if c = 1 then 0 else q.val
      split
      · have := q.isLt; omega
      · rfl)

/-- The squashed output with the bias recast as a row is the spelt-out `1 / (1 + exp (-(agg + spread b)))`. -/
theorem sigRows_eq_spelt {n c : ℕ} (agg : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ ![1])
    (h01 : (⟨2, ![1, c]⟩ : Shape).BroadcastsInDim ⟨2, ![n, c]⟩ ![0, 1])
    (hs : (⟨0, ![]⟩ : Shape).BroadcastsInDim ⟨2, ![n, c]⟩ ![]) :
    sigRows agg (shapeCast ⟨2, ![1, c]⟩ b hc)
      = Host.divf (F := Ideal) (φ := .f32) (broadcastInDim ⟨2, ![n, c]⟩ ![] hs (constant (F := Ideal) ⟨0, ![]⟩ .f32 0x3F800000#32))
          (addf (broadcastInDim ⟨2, ![n, c]⟩ ![] hs (constant (F := Ideal) ⟨0, ![]⟩ .f32 0x3F800000#32))
            (Host.exp (Host.negf (addf agg (broadcastInDim ⟨2, ![n, c]⟩ ![0, 1] h01 (broadcastInDim ⟨2, ![1, c]⟩ ![1] h1 b)))))) := by
  funext i
  obtain ⟨p, q, rfl⟩ : ∃ (p : Fin n) (q : Fin c), i = ix2 p q := ⟨i 0, i 1, eq_ix2 i⟩
  unfold sigRows
  show Ideal.logistic (agg (ix2 p q) + shapeCast ⟨2, ![1, c]⟩ b hc (ix2 (0 : Fin 1) q))
    = Ideal.div (broadcastInDim ⟨2, ![n, c]⟩ ![] hs (constant (F := Ideal) ⟨0, ![]⟩ .f32 0x3F800000#32) (ix2 p q))
        (broadcastInDim ⟨2, ![n, c]⟩ ![] hs (constant (F := Ideal) ⟨0, ![]⟩ .f32 0x3F800000#32) (ix2 p q)
          + Ideal.exp (-(agg (ix2 p q) + broadcastInDim ⟨2, ![n, c]⟩ ![0, 1] h01 (broadcastInDim ⟨2, ![1, c]⟩ ![1] h1 b) (ix2 p q))))
  rw [broadcastInDim_scalar_apply, constant_apply, Ideal.ofBits_one_f32, spread_apply, shapeCast_a_1a_apply]
  rfl

end Cert.Sig

end
-- ==== Proof.Spec.lean ====
/-
  The three row-wise maps of the message-passing layer, on the extended reals, for any number of rows.

  * `pool X A a B b` — node pooling: entry `(p, q)` is `Σ_k leak (Σ_j leak X[p,j] · A[j,k] + a[0,k]) · B[k,q] + b[0,q]`,
    where `leak x` is `x` if `x ≥ 0` and `0.2 · x` otherwise (stated as the compare-and-select it is computed by);
  * `edge E G …` — the gated message: with `x₁ = relu (E·W₁ + b₁)`, `x₂ = relu (x₁·W₂ + b₂)`, entry `(p, q)` is
    `logistic ((x₂·Ws)[p,q] + bs[0,q]) · G[p,q] + ((x₂·Wc)[p,q] + bc[0,q])`;
  * `fin S₁ S₂ D` — the normalised spread: entry `(p, q)` is `√(max (S₂[p,q] / max D[p,0] 1 − S₁[p,q] / max D[p,0] 1) 0 + ε)`.

  Each entry of a row `p` of the result depends on the row-indexed operands only through their row `p` (and on the weight
  matrices and bias rows as a whole). So a block of rows of each map is the map of that block of rows: the `_rows`
  lemmas, which say that two instances agree at two indices once the rows read there agree.
-/
import Idealize.ShloMosaic.Lib.ValueIdx
import Idealize.ShloMosaic.PureOps.Ideal.Laws
import proofs.«122761_j52123723105097_2_alg».proof.Proof.LibPlainDot
import proofs.«122761_j52123723105097_2_alg».proof.Proof.LibBiasRect
import proofs.«122761_j52123723105097_2_alg».proof.Proof.LibSigRows

noncomputable section

namespace Cert.Spec

open Idealize.ShloMosaic Idealize.ShloMosaic.ValueIdx Cert.Lib.PlainDot Cert.Lib.BiasRect Cert.Sig

/-- An `n × c` array of extended reals. -/
abbrev Mat (n c : ℕ) : Type := (⟨2, ![n, c]⟩ : Shape).Idx → EReal

/-- The leaky rectifier with slope the f32 word `0x3E4CCCCD` (0.2), as a comparison with zero and a choice. -/
def leak (x : EReal) : EReal :=
  Scalar.select (FloatOps.cmpf (F := Ideal) (φ := .f32) .oge x (Ideal.ofBits .f32 0x00000000#32)) x
    (Ideal.ofBits .f32 0x3E4CCCCD#32 * x)

/-- `x · W + b` with the one-row bias added to every row. -/
def affine {n : ℕ} (x : Mat n 64) (W : Mat 64 64) (b : Mat 1 64) : Mat n 64 :=
  fun j => rowsByCols x W j + b (ix2 (0 : Fin 1) (j 1))

/-- Node pooling: `leak`, a linear layer, `leak`, a linear layer. -/
def pool {n : ℕ} (X : Mat n 64) (A : Mat 64 64) (a : Mat 1 64) (B : Mat 64 64) (b : Mat 1 64) : Mat n 64 :=
  affine (fun j => leak (affine (fun i => leak (X i)) A a j)) B b

/-- The edge features after the two rectified layers. -/
def hidden {n : ℕ} (E : Mat n 64) (W₁ : Mat 64 64) (b₁ : Mat 1 64) (W₂ : Mat 64 64) (b₂ : Mat 1 64) : Mat n 64 :=
  biasRect (rowsByCols (biasRect (rowsByCols E W₁) b₁) W₂) b₂

/-- The gated message: a logistic gate times the gathered node features, plus a shift. -/
def edge {n : ℕ} (E G : Mat n 64) (W₁ : Mat 64 64) (b₁ : Mat 1 64) (W₂ : Mat 64 64) (b₂ : Mat 1 64)
    (Ws : Mat 64 64) (bs : Mat 1 64) (Wc : Mat 64 64) (bc : Mat 1 64) : Mat n 64 :=
  fun j => sigRows (rowsByCols (hidden E W₁ b₁ W₂ b₂) Ws) bs j * G j + affine (hidden E W₁ b₁ W₂ b₂) Wc bc j

/-- The normalised spread of the two segment sums by the clamped degree column. -/
def fin {n : ℕ} (S₁ S₂ : Mat n 64) (D : Mat n 1) : Mat n 64 :=
  fun j => Ideal.sqrt (max (Ideal.div (S₂ j) (max (D (ix2 (j 0) (0 : Fin 1))) (Ideal.ofBits .f32 0x3F800000#32))
      - Ideal.div (S₁ j) (max (D (ix2 (j 0) (0 : Fin 1))) (Ideal.ofBits .f32 0x3F800000#32))) (Ideal.ofBits .f32 0x00000000#32)
    + Ideal.ofBits .f32 0x3727C5AC#32)

/-! ## Rows of the result from rows of the operands -/

theorem affine_rows {n n' : ℕ} (x : Mat n 64) (x' : Mat n' 64) (W : Mat 64 64) (b : Mat 1 64)
    (j' : (⟨2, ![n', 64]⟩ : Shape).Idx) (j : (⟨2, ![n, 64]⟩ : Shape).Idx)
    (hx : ∀ k : Fin 64, x' (ix2 (j' 0) k) = x (ix2 (j 0) k)) (hc : j' 1 = j 1) :
    affine x' W b j' = affine x W b j := by
  unfold affine
  rw [rowsByCols_congr x W x' W j' j hx (fun k => by rw [hc]), hc]

theorem pool_rows {n n' : ℕ} (X : Mat n 64) (X' : Mat n' 64) (A : Mat 64 64) (a : Mat 1 64) (B : Mat 64 64) (b : Mat 1 64)
    (j' : (⟨2, ![n', 64]⟩ : Shape).Idx) (j : (⟨2, ![n, 64]⟩ : Shape).Idx)
    (hX : ∀ k : Fin 64, X' (ix2 (j' 0) k) = X (ix2 (j 0) k)) (hc : j' 1 = j 1) :
    pool X' A a B b j' = pool X A a B b j := by
  unfold pool
  refine affine_rows _ _ B b j' j (fun k => ?_) hc
  refine congrArg leak (affine_rows _ _ A a (ix2 (j' 0) k) (ix2 (j 0) k) (fun i => ?_) rfl)
  exact congrArg leak (hX i)

theorem hidden_rows {n n' : ℕ} (E : Mat n 64) (E' : Mat n' 64) (W₁ : Mat 64 64) (b₁ : Mat 1 64) (W₂ : Mat 64 64) (b₂ : Mat 1 64)
    (j' : (⟨2, ![n', 64]⟩ : Shape).Idx) (j : (⟨2, ![n, 64]⟩ : Shape).Idx)
    (hE : ∀ k : Fin 64, E' (ix2 (j' 0) k) = E (ix2 (j 0) k)) (hc : j' 1 = j 1) :
    hidden E' W₁ b₁ W₂ b₂ j' = hidden E W₁ b₁ W₂ b₂ j := by
  unfold hidden
  refine biasRect_congr _ b₂ _ b₂ j' j ?_ (by rw [hc])
  refine rowsByCols_congr _ W₂ _ W₂ j' j (fun k => ?_) (fun k => by rw [hc])
  refine biasRect_congr _ b₁ _ b₁ (ix2 (j' 0) k) (ix2 (j 0) k) ?_ rfl
  exact rowsByCols_congr E W₁ E' W₁ (ix2 (j' 0) k) (ix2 (j 0) k) hE (fun _ => rfl)

theorem edge_rows {n n' : ℕ} (E G : Mat n 64) (E' G' : Mat n' 64) (W₁ : Mat 64 64) (b₁ : Mat 1 64) (W₂ : Mat 64 64) (b₂ : Mat 1 64)
    (Ws : Mat 64 64) (bs : Mat 1 64) (Wc : Mat 64 64) (bc : Mat 1 64)
    (j' : (⟨2, ![n', 64]⟩ : Shape).Idx) (j : (⟨2, ![n, 64]⟩ : Shape).Idx)
    (hE : ∀ k : Fin 64, E' (ix2 (j' 0) k) = E (ix2 (j 0) k)) (hG : G' j' = G j) (hc : j' 1 = j 1) :
    edge E' G' W₁ b₁ W₂ b₂ Ws bs Wc bc j' = edge E G W₁ b₁ W₂ b₂ Ws bs Wc bc j := by
  have hh : ∀ k : Fin 64, hidden E' W₁ b₁ W₂ b₂ (ix2 (j' 0) k) = hidden E W₁ b₁ W₂ b₂ (ix2 (j 0) k) :=
    fun k => hidden_rows E E' W₁ b₁ W₂ b₂ (ix2 (j' 0) k) (ix2 (j 0) k) hE rfl
  unfold edge sigRows
  rw [rowsByCols_congr _ Ws _ Ws j' j hh (fun k => by rw [hc]), affine_rows _ _ Wc bc j' j hh hc, hG, hc]

theorem fin_rows {n n' : ℕ} (S₁ S₂ : Mat n 64) (D : Mat n 1) (S₁' S₂' : Mat n' 64) (D' : Mat n' 1)
    (j' : (⟨2, ![n', 64]⟩ : Shape).Idx) (j : (⟨2, ![n, 64]⟩ : Shape).Idx)
    (h₁ : S₁' j' = S₁ j) (h₂ : S₂' j' = S₂ j) (hD : D' (ix2 (j' 0) (0 : Fin 1)) = D (ix2 (j 0) (0 : Fin 1))) :
    fin S₁' S₂' D' j' = fin S₁ S₂ D j := by
  unfold fin
  rw [h₁, h₂, hD]

end Cert.Spec

end
-- ==== Proof.RegionPool.lean ====
/-
  The first region (node pooling) as one function of the arrays it is entered with.

  The region walks the 50000 rows in 10 blocks of 5000; the two weight matrices and the two bias rows are read whole at
  every block. At block `t` the body reads rows `5000·t … 5000·t + 4999` of the node features and writes the same rows of the
  result: `leak`, a product with the first weights plus the first bias row, `leak`, a product with the second weights
  plus the second bias row (the roundings to the narrow float format on the way are the identity on the extended reals,
  and a product into a zero accumulator is the plain product). A row of that depends on the features only through the
  same row, so block `t` of the result is block `t` of `Spec.pool` of the whole arrays; the ten blocks cover every row.
-/
import proofs.«122761_j52123723105097_2_alg».proof.Proof.Gen.KernelIdeal.Frame
import proofs.«122761_j52123723105097_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.RegionPool

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.PlainDot

theorem hz : (![0, 0] : Fin 2 → Nat) = fun _ => 0 := funext fun a => by fin_cases a <;> rfl

/-- A bias row spread over the rows of a block, as a whole array. -/
theorem rowspread (b : (⟨2, ![1, 64]⟩ : Shape).Idx → EReal) (h : (⟨2, ![1, 64]⟩ : Shape).Broadcasts ⟨2, ![5000, 64]⟩) :
    broadcastTo ⟨2, ![5000, 64]⟩ b h = fun j => b (ix2 (0 : Fin 1) (j 1)) :=
  funext fun j => by
    obtain ⟨p, q, rfl⟩ : ∃ (p : Fin 5000) (q : Fin 64), j = ix2 p q := ⟨j 0, j 1, eq_ix2 j⟩
    exact broadcastTo_1b_ab_apply b h p q

/-- A block's matrix product into the zero accumulator is the plain product of the block by the weights. -/
theorem prod_eq {φ₁ φ₂ : FTy} (l : FVec Ideal S5000x64 φ₁) (r : FVec Ideal S64x64 φ₂) :
    matmul dot_S5000x64_S64x64_S5000x64_1_0_0_1_n_n none l r (constant (F := Ideal) S5000x64 .f32 0x00000000#32) = rowsByCols l r :=
  matmul_zero_eq dot_S5000x64_S64x64_S5000x64_1_0_0_1_n_n rfl none l r

/-- The body's arithmetic on a block is node pooling of that block. -/
theorem body_eq (x0 : Vec Ideal S5000x64 .f32) (A : Vec Ideal S64x64 .f32) (a : Vec Ideal S1x64 .f32)
    (B : Vec Ideal S64x64 .f32) (b : Vec Ideal S1x64 .f32) :
    k0_pay1 (F := Ideal) x0 A a B b = Cert.Spec.pool x0 A a B b := by
  unfold k0_pay1
  simp only [shapeCast_self, rowspread, prod_eq]
  rfl

variable (V : (c : Dev nD) → (b : Ref sig .tc) → Buf (Elt Ideal) ((c : Thread nD τ).loc b))

/-- The printed index maps over the 10 points: a row-tiled window's block row is the output's, every block column is 0,
    and a weight or bias window stays at its one block. -/
theorem idx_facts : ∀ t : Fin cfg0.N, win0_0.index t (0 : Fin 2) = win0_5.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (1 : Fin 2) = 0
    ∧ win0_5.index t (0 : Fin 2) ≤ 9 :=
  (by decide +kernel : ∀ t : Fin grid0.N, _)

/-- Every block row is some point's. -/
theorem idx_onto : ∀ q0 : Fin 10, ∃ t : Fin cfg0.N, win0_5.index t = ![q0.val, 0] :=
  (by decide +kernel : ∀ q0 : Fin 10, ∃ t : Fin grid0.N, win0_5.index t = ![q0.val, 0])

/-- Window 1 is its whole array at every point. -/
theorem whole1 (c : Dev nD) (t : Fin cfg0.N) : (iblk0 V c 1 t : S64x64.Idx → EReal) = V c main_v0 := by
  obtain ⟨e0, e1, e2, e3, e4, e5, e6, e7, e8, e9, e10, e11⟩ := idx_facts t
  funext y
  show V c main_v0 (((cfg0.win 1).blk t).view.emb y) = V c main_v0 y
  refine congrArg (V c main_v0) (funext fun a => Fin.ext ?_)
  match a with
  | ⟨0, _⟩ => show win0_1.index t (0 : Fin 2) * 64 + 1 * (y 0).val = (y 0).val; omega
  | ⟨1, _⟩ => show win0_1.index t (1 : Fin 2) * 64 + 1 * (y 1).val = (y 1).val; omega

/-- Window 2 is its whole array at every point. -/
theorem whole2 (c : Dev nD) (t : Fin cfg0.N) : (iblk0 V c 2 t : S1x64.Idx → EReal) = V c main_v2 := by
  obtain ⟨e0, e1, e2, e3, e4, e5, e6, e7, e8, e9, e10, e11⟩ := idx_facts t
  funext y
  show V c main_v2 (((cfg0.win 2).blk t).view.emb y) = V c main_v2 y
  refine congrArg (V c main_v2) (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- Window 3 is its whole array at every point. -/
theorem whole3 (c : Dev nD) (t : Fin cfg0.N) : (iblk0 V c 3 t : S64x64.Idx → EReal) = V c main_v1 := by
  obtain ⟨e0, e1, e2, e3, e4, e5, e6, e7, e8, e9, e10, e11⟩ := idx_facts t
  funext y
  show V c main_v1 (((cfg0.win 3).blk t).view.emb y) = V c main_v1 y
  refine congrArg (V c main_v1) (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- Window 4 is its whole array at every point. -/
theorem whole4 (c : Dev nD) (t : Fin cfg0.N) : (iblk0 V c 4 t : S1x64.Idx → EReal) = V c main_v3 := by
  obtain ⟨e0, e1, e2, e3, e4, e5, e6, e7, e8, e9, e10, e11⟩ := idx_facts t
  funext y
  show V c main_v3 (((cfg0.win 4).blk t).view.emb y) = V c main_v3 y
  refine congrArg (V c main_v3) (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- What point `t` writes back is block `t` of the map of the arrays the region is entered with. -/
theorem flushed_eq (c : Dev nD) (t : Fin cfg0.N) :
    (dat0 (F := Ideal) V c).flushed 5 t
      = ((cfg0.win 5).blk t).view.read (Elt Ideal) (Cert.Spec.pool (V c main_arg0) (V c main_v0) (V c main_v2) (V c main_v1) (V c main_v3)) := by
  show (cfg0.win 5).cut (grid0.coords t) ((dat0 (F := Ideal) V c).after 5 t) = _
  rw [after0_5]
  unfold out0_5
  rw [View.canon_unit_zero hz]
  simp only [View.ld_unit_zero (S := S5000x64) hz, View.ld_unit_zero (S := S64x64) hz, View.ld_unit_zero (S := S1x64) hz]
  obtain ⟨e0, e1, e2, e3, e4, e5, e6, e7, e8, e9, e10, e11⟩ := idx_facts t
  funext y
  refine (congrFun (body_eq (iblk0 V c 0 t) (iblk0 V c 1 t) (iblk0 V c 2 t) (iblk0 V c 3 t) (iblk0 V c 4 t)) y).trans ?_
  rw [whole1 V c t, whole2 V c t, whole3 V c t, whole4 V c t]
  show Cert.Spec.pool (iblk0 V c 0 t) (V c main_v0) (V c main_v2) (V c main_v1) (V c main_v3) y = Cert.Spec.pool (V c main_arg0) (V c main_v0) (V c main_v2) (V c main_v1) (V c main_v3) (((cfg0.win 5).blk t).view.emb y)
  refine Cert.Spec.pool_rows (V c main_arg0) (iblk0 V c 0 t) (V c main_v0) (V c main_v2) (V c main_v1) (V c main_v3)
    y (((cfg0.win 5).blk t).view.emb y) (fun k => ?_) ?_
  ·
    show V c main_arg0 (((cfg0.win 0).blk t).view.emb (ix2 (y 0) k)) = V c main_arg0 (ix2 ((((cfg0.win 5).blk t).view.emb y) 0) k)
    refine congrArg (V c main_arg0) (funext fun a => Fin.ext ?_)
    match a with
    | ⟨0, _⟩ => show win0_0.index t (0 : Fin 2) * 5000 + 1 * (y 0).val = win0_5.index t (0 : Fin 2) * 5000 + 1 * (y 0).val; omega
    | ⟨1, _⟩ => show win0_0.index t (1 : Fin 2) * 64 + 1 * k.val = k.val; omega
  ·
    refine Fin.ext ?_
    show (y 1).val = win0_5.index t (1 : Fin 2) * 64 + 1 * (y 1).val
    omega

/-- An index of the result is in point `t`'s block iff each coordinate is in the block's range on its axis. -/
theorem mem_blk (t : Fin cfg0.N) (i : S50000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v4).slice (win0_5.rect t)).set ↔ _
  rw [View.set_slice_whole, Rect.mem_set_unit]
  exact Iff.rfl

/-- Every index of the result is in the block of the point numbered by its row divided by 5000. -/
theorem cover (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- The result array after the region: the map of the arrays the region is entered with. -/
theorem final (c : Dev nD) :
    (dat0 (F := Ideal) V c).arrAt 5 cfg0.N = Cert.Spec.pool (V c main_arg0) (V c main_v0) (V c main_v2) (V c main_v1) (V c main_v3) :=
  (dat0 (F := Ideal) V c).arrAt_eq_of_cover 5 _ (fun t _ => flushed_eq V c t) cover

end Cert.KernelIdeal.RegionPool

end
-- ==== Proof.RegionEdge.lean ====
/-
  The second region (the edge network and the gated message) as one function of the arrays it is entered with.

  The region walks the 800000 edges in 100 blocks of 8000; the four weight matrices and the four bias rows are read whole
  at every block. At block `t` the body reads rows `8000·t … 8000·t + 7999` of the edge features and of the gathered node
  features and writes the same rows of the message: two rectified linear layers, then a logistic gate times the
  gathered features plus a linear shift (the roundings to the narrow float format are the identity on the extended
  reals, a product into a zero accumulator is the plain product). A row of that depends on the two row-indexed operands
  only through the same row, so block `t` of the result is block `t` of `Spec.edge` of the whole arrays; the hundred
  blocks cover every row.
-/
import proofs.«122761_j52123723105097_2_alg».proof.Proof.Gen.KernelIdeal.Frame
import proofs.«122761_j52123723105097_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.RegionEdge

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.PlainDot

theorem hz : (![0, 0] : Fin 2 → Nat) = fun _ => 0 := funext fun a => by fin_cases a <;> rfl

/-- A bias row spread over the rows of a block, as a whole array. -/
theorem rowspread (b : (⟨2, ![1, 64]⟩ : Shape).Idx → EReal) (h : (⟨2, ![1, 64]⟩ : Shape).Broadcasts ⟨2, ![8000, 64]⟩) :
    broadcastTo ⟨2, ![8000, 64]⟩ b h = fun j => b (ix2 (0 : Fin 1) (j 1)) :=
  funext fun j => by
    obtain ⟨p, q, rfl⟩ : ∃ (p : Fin 8000) (q : Fin 64), j = ix2 p q := ⟨j 0, j 1, eq_ix2 j⟩
    exact broadcastTo_1b_ab_apply b h p q

/-- A block's matrix product into the zero accumulator is the plain product of the block by the weights. -/
theorem prod_eq {φ₁ φ₂ : FTy} (l : FVec Ideal S8000x64 φ₁) (r : FVec Ideal S64x64 φ₂) :
    matmul dot_S8000x64_S64x64_S8000x64_1_0_0_1_n_n none l r (constant (F := Ideal) S8000x64 .f32 0x00000000#32) = rowsByCols l r :=
  matmul_zero_eq dot_S8000x64_S64x64_S8000x64_1_0_0_1_n_n rfl none l r

/-- The body's arithmetic on a block is the gated message of that block. -/
theorem body_eq (x0 : Vec Ideal S8000x64 .f32) (x1 : Vec Ideal S8000x64 .bf16) (x2 : Vec Ideal S64x64 .f32) (x3 : Vec Ideal S1x64 .f32)
    (x4 : Vec Ideal S64x64 .f32) (x5 : Vec Ideal S1x64 .f32) (x6 : Vec Ideal S64x64 .f32) (x7 : Vec Ideal S1x64 .f32)
    (x8 : Vec Ideal S64x64 .f32) (x9 : Vec Ideal S1x64 .f32) :
    k1_pay1 (F := Ideal) (k1_pay2 x0 x2 x3 x4 x5) (k1_pay3 x0 x2 x3 x4 x5 x6 x7) (k1_pay4 x8) x9 x1
      = Cert.Spec.edge x0 x1 x2 x3 x4 x5 x6 x7 x8 x9 := by
  unfold k1_pay1 k1_pay3 k1_pay4 k1_pay2
  simp only [shapeCast_self, rowspread, prod_eq]
  rfl

variable (V : (c : Dev nD) → (b : Ref sig .tc) → Buf (Elt Ideal) ((c : Thread nD τ).loc b))

/-- The printed index maps over the 100 points: a row-tiled window's block row is the output's, every block column is 0,
    and a weight or bias window stays at its one block. -/
theorem idx_facts : ∀ t : Fin cfg1.N, win1_0.index t (0 : Fin 2) = win1_10.index t (0 : Fin 2)
    ∧ win1_1.index t (0 : Fin 2) = win1_10.index t (0 : Fin 2)
    ∧ win1_0.index t (1 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (1 : Fin 2) = 0
    ∧ win1_10.index t (0 : Fin 2) ≤ 99 :=
  (by decide +kernel : ∀ t : Fin grid1.N, _)

/-- Every block row is some point's. -/
theorem idx_onto : ∀ q0 : Fin 100, ∃ t : Fin cfg1.N, win1_10.index t = ![q0.val, 0] :=
  (by decide +kernel : ∀ q0 : Fin 100, ∃ t : Fin grid1.N, win1_10.index t = ![q0.val, 0])

/-- Window 2 is its whole array at every point. -/
theorem whole2 (c : Dev nD) (t : Fin cfg1.N) : (iblk1 V c 2 t : S64x64.Idx → EReal) = V c main_v12 := by
  obtain ⟨e0, e1, e2, e3, e4, e5, e6, e7, e8, e9, e10, e11, e12, e13, e14, e15, e16, e17, e18, e19, e20, e21⟩ := idx_facts t
  funext y
  show V c main_v12 (((cfg1.win 2).blk t).view.emb y) = V c main_v12 y
  refine congrArg (V c main_v12) (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- Window 3 is its whole array at every point. -/
theorem whole3 (c : Dev nD) (t : Fin cfg1.N) : (iblk1 V c 3 t : S1x64.Idx → EReal) = V c main_v16 := by
  obtain ⟨e0, e1, e2, e3, e4, e5, e6, e7, e8, e9, e10, e11, e12, e13, e14, e15, e16, e17, e18, e19, e20, e21⟩ := idx_facts t
  funext y
  show V c main_v16 (((cfg1.win 3).blk t).view.emb y) = V c main_v16 y
  refine congrArg (V c main_v16) (funext fun a => Fin.ext ?_)
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- Window 4 is its whole array at every point. -/
theorem whole4 (c : Dev nD) (t : Fin cfg1.N) : (iblk1 V c 4 t : S64x64.Idx → EReal) = V c main_v13 := by
  obtain ⟨e0, e1, e2, e3, e4, e5, e6, e7, e8, e9, e10, e11, e12, e13, e14, e15, e16, e17, e18, e19, e20, e21⟩ := idx_facts t
  funext y
  show V c main_v13 (((cfg1.win 4).blk t).view.emb y) = V c main_v13 y
  refine congrArg (V c main_v13) (funext fun a => Fin.ext ?_)
  match a with
  | ⟨0, _⟩ => show win1_4.index t (0 : Fin 2) * 64 + 1 * (y 0).val = (y 0).val; omega
  | ⟨1, _⟩ => show win1_4.index t (1 : Fin 2) * 64 + 1 * (y 1).val = (y 1).val; omega

/-- Window 5 is its whole array at every point. -/
theorem whole5 (c : Dev nD) (t : Fin cfg1.N) : (iblk1 V c 5 t : S1x64.Idx → EReal) = V c main_v17 := by
  obtain ⟨e0, e1, e2, e3, e4, e5, e6, e7, e8, e9, e10, e11, e12, e13, e14, e15, e16, e17, e18, e19, e20, e21⟩ := idx_facts t
  funext y
  show V c main_v17 (((cfg1.win 5).blk t).view.emb y) = V c main_v17 y
  refine congrArg (V c main_v17) (funext fun a => Fin.ext ?_)
  match a with
  | ⟨0, _⟩ => show win1_5.index t (0 : Fin 2) * 1 + 1 * (y 0).val = (y 0).val; omega
  | ⟨1, _⟩ => show win1_5.index t (1 : Fin 2) * 64 + 1 * (y 1).val = (y 1).val; omega

/-- Window 6 is its whole array at every point. -/
theorem whole6 (c : Dev nD) (t : Fin cfg1.N) : (iblk1 V c 6 t : S64x64.Idx → EReal) = V c main_v14 := by
  obtain ⟨e0, e1, e2, e3, e4, e5, e6, e7, e8, e9, e10, e11, e12, e13, e14, e15, e16, e17, e18, e19, e20, e21⟩ := idx_facts t
  funext y
  show V c main_v14 (((cfg1.win 6).blk t).view.emb y) = V c main_v14 y
  refine congrArg (V c main_v14) (funext fun a => Fin.ext ?_)
  match a with
  | ⟨0, _⟩ => show win1_6.index t (0 : Fin 2) * 64 + 1 * (y 0).val = (y 0).val; omega
  | ⟨1, _⟩ => show win1_6.index t (1 : Fin 2) * 64 + 1 * (y 1).val = (y 1).val; omega

/-- Window 7 is its whole array at every point. -/
theorem whole7 (c : Dev nD) (t : Fin cfg1.N) : (iblk1 V c 7 t : S1x64.Idx → EReal) = V c main_v18 := by
  obtain ⟨e0, e1, e2, e3, e4, e5, e6, e7, e8, e9, e10, e11, e12, e13, e14, e15, e16, e17, e18, e19, e20, e21⟩ := idx_facts t
  funext y
  show V c main_v18 (((cfg1.win 7).blk t).view.emb y) = V c main_v18 y
  refine congrArg (V c main_v18) (funext fun a => Fin.ext ?_)
  match a with
  | ⟨0, _⟩ => show win1_7.index t (0 : Fin 2) * 1 + 1 * (y 0).val = (y 0).val; omega
  | ⟨1, _⟩ => show win1_7.index t (1 : Fin 2) * 64 + 1 * (y 1).val = (y 1).val; omega

/-- Window 8 is its whole array at every point. -/
theorem whole8 (c : Dev nD) (t : Fin cfg1.N) : (iblk1 V c 8 t : S64x64.Idx → EReal) = V c main_v15 := by
  obtain ⟨e0, e1, e2, e3, e4, e5, e6, e7, e8, e9, e10, e11, e12, e13, e14, e15, e16, e17, e18, e19, e20, e21⟩ := idx_facts t
  funext y
  show V c main_v15 (((cfg1.win 8).blk t).view.emb y) = V c main_v15 y
  refine congrArg (V c main_v15) (funext fun a => Fin.ext ?_)
  match a with
  | ⟨0, _⟩ => show win1_8.index t (0 : Fin 2) * 64 + 1 * (y 0).val = (y 0).val; omega
  | ⟨1, _⟩ => show win1_8.index t (1 : Fin 2) * 64 + 1 * (y 1).val = (y 1).val; omega

/-- Window 9 is its whole array at every point. -/
theorem whole9 (c : Dev nD) (t : Fin cfg1.N) : (iblk1 V c 9 t : S1x64.Idx → EReal) = V c main_v19 := by
  obtain ⟨e0, e1, e2, e3, e4, e5, e6, e7, e8, e9, e10, e11, e12, e13, e14, e15, e16, e17, e18, e19, e20, e21⟩ := idx_facts t
  funext y
  show V c main_v19 (((cfg1.win 9).blk t).view.emb y) = V c main_v19 y
  refine congrArg (V c main_v19) (funext fun a => Fin.ext ?_)
  match a with
  | ⟨0, _⟩ => show win1_9.index t (0 : Fin 2) * 1 + 1 * (y 0).val = (y 0).val; omega
  | ⟨1, _⟩ => show win1_9.index t (1 : Fin 2) * 64 + 1 * (y 1).val = (y 1).val; omega

/-- What point `t` writes back is block `t` of the map of the arrays the region is entered with. -/
theorem flushed_eq (c : Dev nD) (t : Fin cfg1.N) :
    (dat1 (F := Ideal) V c).flushed 10 t
      = ((cfg1.win 10).blk t).view.read (Elt Ideal) (Cert.Spec.edge (V c main_arg1) (V c main_v11) (V c main_v12) (V c main_v16) (V c main_v13) (V c main_v17) (V c main_v14) (V c main_v18) (V c main_v15) (V c main_v19)) := by
  show (cfg1.win 10).cut (grid1.coords t) ((dat1 (F := Ideal) V c).after 10 t) = _
  rw [after1_10]
  unfold out1_10
  rw [View.canon_unit_zero hz]
  simp only [View.ld_unit_zero (S := S8000x64) hz, View.ld_unit_zero (S := S64x64) hz, View.ld_unit_zero (S := S1x64) hz]
  obtain ⟨e0, e1, e2, e3, e4, e5, e6, e7, e8, e9, e10, e11, e12, e13, e14, e15, e16, e17, e18, e19, e20, e21⟩ := idx_facts t
  funext y
  refine (congrFun (body_eq (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) y).trans ?_
  rw [whole2 V c t, whole3 V c t, whole4 V c t, whole5 V c t, whole6 V c t, whole7 V c t, whole8 V c t, whole9 V c t]
  show Cert.Spec.edge (iblk1 V c 0 t) (iblk1 V c 1 t) (V c main_v12) (V c main_v16) (V c main_v13) (V c main_v17) (V c main_v14) (V c main_v18) (V c main_v15) (V c main_v19) y = Cert.Spec.edge (V c main_arg1) (V c main_v11) (V c main_v12) (V c main_v16) (V c main_v13) (V c main_v17) (V c main_v14) (V c main_v18) (V c main_v15) (V c main_v19) (((cfg1.win 10).blk t).view.emb y)
  refine Cert.Spec.edge_rows (V c main_arg1) (V c main_v11) (iblk1 V c 0 t) (iblk1 V c 1 t) (V c main_v12) (V c main_v16)
    (V c main_v13) (V c main_v17) (V c main_v14) (V c main_v18) (V c main_v15) (V c main_v19)
    y (((cfg1.win 10).blk t).view.emb y) (fun k => ?_) ?_ ?_
  ·
    show V c main_arg1 (((cfg1.win 0).blk t).view.emb (ix2 (y 0) k)) = V c main_arg1 (ix2 ((((cfg1.win 10).blk t).view.emb y) 0) k)
    refine congrArg (V c main_arg1) (funext fun a => Fin.ext ?_)
    match a with
    | ⟨0, _⟩ => show win1_0.index t (0 : Fin 2) * 8000 + 1 * (y 0).val = win1_10.index t (0 : Fin 2) * 8000 + 1 * (y 0).val; omega
    | ⟨1, _⟩ => show win1_0.index t (1 : Fin 2) * 64 + 1 * k.val = k.val; omega
  · show V c main_v11 (((cfg1.win 1).blk t).view.emb y) = V c main_v11 (((cfg1.win 10).blk t).view.emb y)
    refine congrArg (V c main_v11) (funext fun a => Fin.ext ?_)
    match a with
    | ⟨0, _⟩ => show win1_1.index t (0 : Fin 2) * 8000 + 1 * (y 0).val = win1_10.index t (0 : Fin 2) * 8000 + 1 * (y 0).val; omega
    | ⟨1, _⟩ => show win1_1.index t (1 : Fin 2) * 64 + 1 * (y 1).val = win1_10.index t (1 : Fin 2) * 64 + 1 * (y 1).val; omega
  ·
    refine Fin.ext ?_
    show (y 1).val = win1_10.index t (1 : Fin 2) * 64 + 1 * (y 1).val
    omega

/-- An index of the result is in point `t`'s block iff each coordinate is in the block's range on its axis. -/
theorem mem_blk (t : Fin cfg1.N) (i : S800000x64.Idx) :
    i ∈ ((cfg1.win 10).blk t).view.set ↔ ∀ a : Fin 2, win1_10.index t a * S8000x64.size a ≤ (i a).val
      ∧ (i a).val < win1_10.index t a * S8000x64.size a + S8000x64.size a := by
  show i ∈ ((View.whole main_v20).slice (win1_10.rect t)).set ↔ _
  rw [View.set_slice_whole, Rect.mem_set_unit]
  exact Iff.rfl

/-- Every index of the result is in the block of the point numbered by its row divided by 8000. -/
theorem cover (i : S800000x64.Idx) :
    ∃ t : Fin cfg1.N, (cfg1.win 10).flush t = true ∧ i ∈ ((cfg1.win 10).blk t).view.set := by
  have hi0 : (i 0).val < 800000 := (i 0).isLt
  have hi1 : (i 1).val < 64 := (i 1).isLt
  obtain ⟨t, ht⟩ := idx_onto ⟨(i 0).val / 8000, by omega⟩
  have q0 : win1_10.index t (0 : Fin 2) = (i 0).val / 8000 := congrFun ht 0
  have q1 : win1_10.index t (1 : Fin 2) = 0 := congrFun ht 1
  refine ⟨t, flush1_10 t, ?_⟩
  rw [mem_blk]
  intro a
  match a with
  | ⟨0, _⟩ => show win1_10.index t (0 : Fin 2) * 8000 ≤ (i 0).val ∧ (i 0).val < win1_10.index t (0 : Fin 2) * 8000 + 8000; omega
  | ⟨1, _⟩ => show win1_10.index t (1 : Fin 2) * 64 ≤ (i 1).val ∧ (i 1).val < win1_10.index t (1 : Fin 2) * 64 + 64; omega

/-- The result array after the region: the map of the arrays the region is entered with. -/
theorem final (c : Dev nD) :
    (dat1 (F := Ideal) V c).arrAt 10 cfg1.N = Cert.Spec.edge (V c main_arg1) (V c main_v11) (V c main_v12) (V c main_v16) (V c main_v13) (V c main_v17) (V c main_v14) (V c main_v18) (V c main_v15) (V c main_v19) :=
  (dat1 (F := Ideal) V c).arrAt_eq_of_cover 10 _ (fun t _ => flushed_eq V c t) cover

end Cert.KernelIdeal.RegionEdge

end
-- ==== Proof.LibKeepdimsColumn.lean ====
/-
  A row sum kept as a column, read at an index.

  `jnp.sum(x, axis=1, keepdims=True)` on an `[a, b]` array is a sum along the second axis into `[a]`, a recast of that to
  the column `[a, 1]`, and (where it meets an `[a, b]` operand) a broadcast of the column along the rows. Read at an
  index: the sum at row `p` is the sum of that row's `b` entries; the column at `(i, u)` is the sum at `i`; the broadcast
  at `(p, c)` is the column at `(p, 0)`. These are the column-shaped companions of the library's leading-unit-axis cast
  `[a] → [1, a]` and row broadcast `[1, b] → [a, b]`, stated over literal-extent index constructors so that they fire on
  coordinates of literal `Fin` types.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Lib

open Idealize.ShloMosaic Idealize.ShloMosaic.ValueIdx

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum along the second axis of an `[a, b]` array, at row `p`, is the sum of that row's `b` entries. -/
theorem rowsum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x ?_
  funext d
  apply Fin.ext
  match d with
  | ⟨0, _⟩ => rfl
  | ⟨1, _⟩ => rfl

end Cert.Gcn.Lib

end
-- ==== Proof.RegionFin.lean ====
/-
  The third region (the normalisation) as one function of the arrays it is entered with.

  The region walks the 50000 rows in 10 blocks of 5000. At block `t` the body reads rows `5000·t … 5000·t + 4999` of the
  two segment sums and of the degree column and writes the same rows of the result. Entry `(r, q)` of what it writes is
  `√(max (S₂/max d 1 − S₁/max d 1) 0 + ε)` at row `r` of the block, and depends on the three operands only through that
  row: so block `t` of the result is block `t` of `Spec.fin` of the whole arrays, the ten blocks cover every row, and the
  result array ends as `Spec.fin S₁ S₂ D` — for whatever contents `V` the region is entered with.
-/
import proofs.«122761_j52123723105097_2_alg».proof.Proof.Gen.KernelIdeal.Frame
import proofs.«122761_j52123723105097_2_alg».proof.Proof.Spec
import proofs.«122761_j52123723105097_2_alg».proof.Proof.LibKeepdimsColumn
import Idealize.ShloMosaic.Lib.Pipeline.Value
import Idealize.ShloMosaic.Lib.ValueIdx

set_option maxRecDepth 16384

noncomputable section

namespace Cert.KernelIdeal.RegionFin

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- A column spread along the rows, as a whole array. -/
theorem colspread (v : (⟨2, ![5000, 1]⟩ : Shape).Idx → EReal) (h : (⟨2, ![5000, 1]⟩ : Shape).Broadcasts ⟨2, ![5000, 64]⟩) :
    broadcastTo ⟨2, ![5000, 64]⟩ v h = fun j => v (ix2 (j 0) (0 : Fin 1)) :=
  funext fun j => by
    obtain ⟨p, q, rfl⟩ : ∃ (p : Fin 5000) (q : Fin 64), j = ix2 p q := ⟨j 0, j 1, eq_ix2 j⟩
    exact Cert.Gcn.Lib.broadcastTo_a1_ab_apply v h p q

/-- The body's arithmetic on a block is the normalised spread of that block. -/
theorem body_eq (x0 x1 : Vec Ideal S5000x64 .f32) (x2 : Vec Ideal S5000x1 .f32) :
    k2_pay1 (F := Ideal) x0 x1 x2 = Cert.Spec.fin x0 x1 x2 := by
  unfold k2_pay1
  simp only [shapeCast_self]
  rw [colspread]
  rfl

variable (V : (c : Dev nD) → (b : Ref sig .tc) → Buf (Elt Ideal) ((c : Thread nD τ).loc b))

/-- The printed index maps over the ten points: every window's block row is the point's number, its block column 0. -/
theorem idx_facts : ∀ t : Fin cfg2.N, win2_0.index t (0 : Fin 2) = win2_3.index t (0 : Fin 2)
    ∧ win2_1.index t (0 : Fin 2) = win2_3.index t (0 : Fin 2)
    ∧ win2_2.index t (0 : Fin 2) = win2_3.index t (0 : Fin 2)
    ∧ win2_0.index t (1 : Fin 2) = 0 ∧ win2_1.index t (1 : Fin 2) = 0 ∧ win2_2.index t (1 : Fin 2) = 0
    ∧ win2_3.index t (1 : Fin 2) = 0 ∧ win2_3.index t (0 : Fin 2) ≤ 9 :=
  (by decide +kernel : ∀ t : Fin grid2.N, _)

/-- Every block row is some point's. -/
theorem idx_onto : ∀ q0 : Fin 10, ∃ t : Fin cfg2.N, win2_3.index t = ![q0.val, 0] :=
  (by decide +kernel : ∀ q0 : Fin 10, ∃ t : Fin grid2.N, win2_3.index t = ![q0.val, 0])

/-- What point `t` writes back is block `t` of the normalised spread of the arrays the region is entered with. -/
theorem flushed_eq (c : Dev nD) (t : Fin cfg2.N) :
    (dat2 (F := Ideal) V c).flushed 3 t
      = ((cfg2.win 3).blk t).view.read (Elt Ideal) (Cert.Spec.fin (V c main_v29) (V c main_v32) (V c main_v33)) := by
  show (cfg2.win 3).cut (grid2.coords t) ((dat2 (F := Ideal) V c).after 3 t) = _
  rw [after2_3]
  unfold out2_3
  rw [View.canon_unit_zero hz]
  simp only [View.ld_unit_zero (S := S5000x64) hz, View.ld_unit_zero (S := S5000x1) hz]
  obtain ⟨e0, e1, e2, e3, e4, e5, e6, e7⟩ := idx_facts t
  funext y
  refine (congrFun (body_eq (iblk2 V c 0 t) (iblk2 V c 1 t) (iblk2 V c 2 t)) y).trans ?_
  show Cert.Spec.fin (iblk2 V c 0 t) (iblk2 V c 1 t) (iblk2 V c 2 t) y
    = Cert.Spec.fin (V c main_v29) (V c main_v32) (V c main_v33) (((cfg2.win 3).blk t).view.emb y)
  refine Cert.Spec.fin_rows (V c main_v29) (V c main_v32) (V c main_v33) (iblk2 V c 0 t) (iblk2 V c 1 t) (iblk2 V c 2 t)
    y (((cfg2.win 3).blk t).view.emb y) ?_ ?_ ?_
  · show V c main_v29 (((cfg2.win 0).blk t).view.emb y) = V c main_v29 (((cfg2.win 3).blk t).view.emb y)
    refine congrArg (V c main_v29) (funext fun a => Fin.ext ?_)
    match a with
    | ⟨0, _⟩ => show win2_0.index t (0 : Fin 2) * 5000 + 1 * (y 0).val = win2_3.index t (0 : Fin 2) * 5000 + 1 * (y 0).val; omega
    | ⟨1, _⟩ => show win2_0.index t (1 : Fin 2) * 64 + 1 * (y 1).val = win2_3.index t (1 : Fin 2) * 64 + 1 * (y 1).val; omega
  · show V c main_v32 (((cfg2.win 1).blk t).view.emb y) = V c main_v32 (((cfg2.win 3).blk t).view.emb y)
    refine congrArg (V c main_v32) (funext fun a => Fin.ext ?_)
    match a with
    | ⟨0, _⟩ => show win2_1.index t (0 : Fin 2) * 5000 + 1 * (y 0).val = win2_3.index t (0 : Fin 2) * 5000 + 1 * (y 0).val; omega
    | ⟨1, _⟩ => show win2_1.index t (1 : Fin 2) * 64 + 1 * (y 1).val = win2_3.index t (1 : Fin 2) * 64 + 1 * (y 1).val; omega
  · show V c main_v33 (((cfg2.win 2).blk t).view.emb (ix2 (y 0) (0 : Fin 1)))
      = V c main_v33 (ix2 ((((cfg2.win 3).blk t).view.emb y) 0) (0 : Fin 1))
    refine congrArg (V c main_v33) (funext fun a => Fin.ext ?_)
    match a with
    | ⟨0, _⟩ => show win2_2.index t (0 : Fin 2) * 5000 + 1 * (y 0).val = win2_3.index t (0 : Fin 2) * 5000 + 1 * (y 0).val; omega
    | ⟨1, _⟩ => show win2_2.index t (1 : Fin 2) * 1 + 1 * 0 = 0; omega

/-- An index of the result is in point `t`'s block iff each coordinate is in the block's range on its axis. -/
theorem mem_blk (t : Fin cfg2.N) (i : S50000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v34).slice (win2_3.rect t)).set ↔ _
  rw [View.set_slice_whole, Rect.mem_set_unit]
  exact Iff.rfl

/-- Every index of the result is in the block of the point numbered by its row divided by 5000. -/
theorem cover (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  obtain ⟨t, ht⟩ := idx_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- The result array after the region: the normalised spread of the arrays the region is entered with. -/
theorem final (c : Dev nD) :
    (dat2 (F := Ideal) V c).arrAt 3 cfg2.N = Cert.Spec.fin (V c main_v29) (V c main_v32) (V c main_v33) :=
  (dat2 (F := Ideal) V c).arrAt_eq_of_cover 3 _ (fun t _ => flushed_eq V c t) cover

end Cert.KernelIdeal.RegionFin

end
-- ==== Proof.KernelValue.lean ====
/-
  The value of the whole program, boundary by boundary.

  Between the launch and the return the program's buffers pass six boundaries: a stretch of host operations (the weight
  matrices transposed, the bias vectors recast as rows), the node-pooling region, a second stretch (the source indices
  wrapped, the pooled rows gathered, more transposes and recasts), the edge region, a third stretch (the message and its
  square summed into the destination rows, the degrees counted) and the normalisation region. Read at the one buffer each
  step produces:
  * after the first region the pooled table is `Spec.pool` of the node features and the transposed, recast parameters;
  * after the second stretch the gathered features are the gather of whatever the pooled table holds, by the wrapped indices;
  * after the second region the message is `Spec.edge` of the edge features and whatever the gathered features hold;
  * after the third region the result is `Spec.fin` of the two scatter sums of whatever the message holds and of the
    degree column.
  An argument buffer is written by no step, so it holds its launch contents at every boundary.
-/
import proofs.«122761_j52123723105097_2_alg».proof.Proof.Gen.KernelIdeal.Frame
import proofs.«122761_j52123723105097_2_alg».proof.Proof.Spec
import proofs.«122761_j52123723105097_2_alg».proof.Proof.RegionPool
import proofs.«122761_j52123723105097_2_alg».proof.Proof.RegionEdge
import proofs.«122761_j52123723105097_2_alg».proof.Proof.RegionFin
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The arguments at the inner boundaries -/

theorem W2_arg1 : W2 (F := Ideal) m ρ c (Proc.devRef .tc main_arg1) = m ((c.tc : Thread nD τ).loc main_arg1) :=
  (W2_of_ne m ρ c main_arg1 (by decide)).trans (by
    show StableHlo.after hostOps0 (W0 m ρ c) (Proc.devRef .tc main_arg1) = _
    after_results)
theorem W2_arg2 : W2 (F := Ideal) m ρ c (Proc.devRef .tc main_arg2) = m ((c.tc : Thread nD τ).loc main_arg2) :=
  (W2_of_ne m ρ c main_arg2 (by decide)).trans (by
    show StableHlo.after hostOps0 (W0 m ρ c) (Proc.devRef .tc main_arg2) = _
    after_results)
theorem W2_arg3 : W2 (F := Ideal) m ρ c (Proc.devRef .tc main_arg3) = m ((c.tc : Thread nD τ).loc main_arg3) :=
  (W2_of_ne m ρ c main_arg3 (by decide)).trans (by
    show StableHlo.after hostOps0 (W0 m ρ c) (Proc.devRef .tc main_arg3) = _
    after_results)
theorem W2_arg8 : W2 (F := Ideal) m ρ c (Proc.devRef .tc main_arg8) = m ((c.tc : Thread nD τ).loc main_arg8) :=
  (W2_of_ne m ρ c main_arg8 (by decide)).trans (by
    show StableHlo.after hostOps0 (W0 m ρ c) (Proc.devRef .tc main_arg8) = _
    after_results)
theorem W2_arg9 : W2 (F := Ideal) m ρ c (Proc.devRef .tc main_arg9) = m ((c.tc : Thread nD τ).loc main_arg9) :=
  (W2_of_ne m ρ c main_arg9 (by decide)).trans (by
    show StableHlo.after hostOps0 (W0 m ρ c) (Proc.devRef .tc main_arg9) = _
    after_results)
theorem W2_arg10 : W2 (F := Ideal) m ρ c (Proc.devRef .tc main_arg10) = m ((c.tc : Thread nD τ).loc main_arg10) :=
  (W2_of_ne m ρ c main_arg10 (by decide)).trans (by
    show StableHlo.after hostOps0 (W0 m ρ c) (Proc.devRef .tc main_arg10) = _
    after_results)
theorem W2_arg11 : W2 (F := Ideal) m ρ c (Proc.devRef .tc main_arg11) = m ((c.tc : Thread nD τ).loc main_arg11) :=
  (W2_of_ne m ρ c main_arg11 (by decide)).trans (by
    show StableHlo.after hostOps0 (W0 m ρ c) (Proc.devRef .tc main_arg11) = _
    after_results)
theorem W2_arg12 : W2 (F := Ideal) m ρ c (Proc.devRef .tc main_arg12) = m ((c.tc : Thread nD τ).loc main_arg12) :=
  (W2_of_ne m ρ c main_arg12 (by decide)).trans (by
    show StableHlo.after hostOps0 (W0 m ρ c) (Proc.devRef .tc main_arg12) = _
    after_results)
theorem W2_arg13 : W2 (F := Ideal) m ρ c (Proc.devRef .tc main_arg13) = m ((c.tc : Thread nD τ).loc main_arg13) :=
  (W2_of_ne m ρ c main_arg13 (by decide)).trans (by
    show StableHlo.after hostOps0 (W0 m ρ c) (Proc.devRef .tc main_arg13) = _
    after_results)
theorem W2_arg14 : W2 (F := Ideal) m ρ c (Proc.devRef .tc main_arg14) = m ((c.tc : Thread nD τ).loc main_arg14) :=
  (W2_of_ne m ρ c main_arg14 (by decide)).trans (by
    show StableHlo.after hostOps0 (W0 m ρ c) (Proc.devRef .tc main_arg14) = _
    after_results)
theorem W2_arg15 : W2 (F := Ideal) m ρ c (Proc.devRef .tc main_arg15) = m ((c.tc : Thread nD τ).loc main_arg15) :=
  (W2_of_ne m ρ c main_arg15 (by decide)).trans (by
    show StableHlo.after hostOps0 (W0 m ρ c) (Proc.devRef .tc main_arg15) = _
    after_results)

theorem W4_arg3 : W4 (F := Ideal) m ρ c (Proc.devRef .tc main_arg3) = m ((c.tc : Thread nD τ).loc main_arg3) :=
  (W4_of_ne m ρ c main_arg3 (by decide)).trans (by
    show StableHlo.after hostOps1 (W2 m ρ c) (Proc.devRef .tc main_arg3) = _
    after_results
    exact W2_arg3 m ρ c)

/-! ## What each stretch of host operations leaves at a region's operands -/

theorem V1_main_arg0 : V1 (F := Ideal) m ρ c main_arg0 = m ((c.tc : Thread nD τ).loc main_arg0) := by
  show StableHlo.after hostOps0 (W0 m ρ c) (Proc.devRef .tc main_arg0) = _
  after_results
theorem V1_main_v0 : V1 (F := Ideal) m ρ c main_v0 = (transpose S64x64 [1, 0] (m ((c.tc : Thread nD τ).loc main_arg4)) transposes_S64x64_S64x64_1_0) := by
  show StableHlo.after hostOps0 (W0 m ρ c) (Proc.devRef .tc main_v0) = _
  after_results
theorem V1_main_v2 : V1 (F := Ideal) m ρ c main_v2 = (shapeCast S1x64 (m ((c.tc : Thread nD τ).loc main_arg5)) shapeCasts_S64_S1x64) := by
  show StableHlo.after hostOps0 (W0 m ρ c) (Proc.devRef .tc main_v2) = _
  after_results
  rfl
theorem V1_main_v1 : V1 (F := Ideal) m ρ c main_v1 = (transpose S64x64 [1, 0] (m ((c.tc : Thread nD τ).loc main_arg6)) transposes_S64x64_S64x64_1_0) := by
  show StableHlo.after hostOps0 (W0 m ρ c) (Proc.devRef .tc main_v1) = _
  after_results
theorem V1_main_v3 : V1 (F := Ideal) m ρ c main_v3 = (shapeCast S1x64 (m ((c.tc : Thread nD τ).loc main_arg7)) shapeCasts_S64_S1x64) := by
  show StableHlo.after hostOps0 (W0 m ρ c) (Proc.devRef .tc main_v3) = _
  after_results
  rfl

theorem V3_main_arg1 : V3 (F := Ideal) m ρ c main_arg1 = m ((c.tc : Thread nD τ).loc main_arg1) := by
  show StableHlo.after hostOps1 (W2 m ρ c) (Proc.devRef .tc main_arg1) = _
  after_results
  exact W2_arg1 m ρ c
theorem V3_main_v12 : V3 (F := Ideal) m ρ c main_v12 = (transpose S64x64 [1, 0] (m ((c.tc : Thread nD τ).loc main_arg8)) transposes_S64x64_S64x64_1_0) := by
  show StableHlo.after hostOps1 (W2 m ρ c) (Proc.devRef .tc main_v12) = _
  after_results
  rw [W2_arg8 m ρ c]
theorem V3_main_v16 : V3 (F := Ideal) m ρ c main_v16 = (shapeCast S1x64 (m ((c.tc : Thread nD τ).loc main_arg9)) shapeCasts_S64_S1x64) := by
  show StableHlo.after hostOps1 (W2 m ρ c) (Proc.devRef .tc main_v16) = _
  after_results
  rw [W2_arg9 m ρ c]
  rfl
theorem V3_main_v13 : V3 (F := Ideal) m ρ c main_v13 = (transpose S64x64 [1, 0] (m ((c.tc : Thread nD τ).loc main_arg10)) transposes_S64x64_S64x64_1_0) := by
  show StableHlo.after hostOps1 (W2 m ρ c) (Proc.devRef .tc main_v13) = _
  after_results
  rw [W2_arg10 m ρ c]
theorem V3_main_v17 : V3 (F := Ideal) m ρ c main_v17 = (shapeCast S1x64 (m ((c.tc : Thread nD τ).loc main_arg11)) shapeCasts_S64_S1x64) := by
  show StableHlo.after hostOps1 (W2 m ρ c) (Proc.devRef .tc main_v17) = _
  after_results
  rw [W2_arg11 m ρ c]
  rfl
theorem V3_main_v14 : V3 (F := Ideal) m ρ c main_v14 = (transpose S64x64 [1, 0] (m ((c.tc : Thread nD τ).loc main_arg12)) transposes_S64x64_S64x64_1_0) := by
  show StableHlo.after hostOps1 (W2 m ρ c) (Proc.devRef .tc main_v14) = _
  after_results
  rw [W2_arg12 m ρ c]
theorem V3_main_v18 : V3 (F := Ideal) m ρ c main_v18 = (shapeCast S1x64 (m ((c.tc : Thread nD τ).loc main_arg13)) shapeCasts_S64_S1x64) := by
  show StableHlo.after hostOps1 (W2 m ρ c) (Proc.devRef .tc main_v18) = _
  after_results
  rw [W2_arg13 m ρ c]
  rfl
theorem V3_main_v15 : V3 (F := Ideal) m ρ c main_v15 = (transpose S64x64 [1, 0] (m ((c.tc : Thread nD τ).loc main_arg14)) transposes_S64x64_S64x64_1_0) := by
  show StableHlo.after hostOps1 (W2 m ρ c) (Proc.devRef .tc main_v15) = _
  after_results
  rw [W2_arg14 m ρ c]
theorem V3_main_v19 : V3 (F := Ideal) m ρ c main_v19 = (shapeCast S1x64 (m ((c.tc : Thread nD τ).loc main_arg15)) shapeCasts_S64_S1x64) := by
  show StableHlo.after hostOps1 (W2 m ρ c) (Proc.devRef .tc main_v19) = _
  after_results
  rw [W2_arg15 m ρ c]
  rfl

theorem V5_main_v29 (M : FVec Ideal S800000x64 .bf16) (hM : W4 (F := Ideal) m ρ c (Proc.devRef .tc main_v20) = M) :
    V5 (F := Ideal) m ρ c main_v29 = (Host.scatterAdd (F := Ideal) scatter_S50000x64_S800000x1_S800000x64_1_0_0_1
            (broadcastInDim S50000x64 ![] bcast_S_S50000x64 (constant (F := Ideal) S_ .f32 0x00000000#32))
            (broadcastInDim S800000x1 ![0] bcast_S800000_S800000x1_0 (m ((c.tc : Thread nD τ).loc main_arg3)))
            (extf .f32 M bitsLt_bf16_f32)) := by
  show StableHlo.after hostOps2 (W4 m ρ c) (Proc.devRef .tc main_v29) = _
  after_results
  rw [W4_arg3 m ρ c, hM]
theorem V5_main_v32 (M : FVec Ideal S800000x64 .bf16) (hM : W4 (F := Ideal) m ρ c (Proc.devRef .tc main_v20) = M) :
    V5 (F := Ideal) m ρ c main_v32 = (Host.scatterAdd (F := Ideal) scatter_S50000x64_S800000x1_S800000x64_1_0_0_1
            (broadcastInDim S50000x64 ![] bcast_S_S50000x64 (constant (F := Ideal) S_ .f32 0x00000000#32))
            (broadcastInDim S800000x1 ![0] bcast_S800000_S800000x1_0 (m ((c.tc : Thread nD τ).loc main_arg3)))
            (mulf (extf .f32 M bitsLt_bf16_f32) (extf .f32 M bitsLt_bf16_f32))) := by
  show StableHlo.after hostOps2 (W4 m ρ c) (Proc.devRef .tc main_v32) = _
  after_results
  rw [W4_arg3 m ρ c, hM]
theorem V5_main_v33 : V5 (F := Ideal) m ρ c main_v33 = (broadcastInDim S50000x1 ![0] bcast_S50000_S50000x1_0
            (Host.scatterAdd (F := Ideal) scatter_S50000_S800000x1_S800000_n_0_0_1
              (broadcastInDim S50000 ![] bcast_S_S50000 (constant (F := Ideal) S_ .f32 0x00000000#32))
              (broadcastInDim S800000x1 ![0] bcast_S800000_S800000x1_0 (m ((c.tc : Thread nD τ).loc main_arg3)))
              (broadcastInDim S800000 ![] bcast_S_S800000 (constant (F := Ideal) S_ .f32 0x3F800000#32)))) := by
  show StableHlo.after hostOps2 (W4 m ρ c) (Proc.devRef .tc main_v33) = _
  after_results
  rw [W4_arg3 m ρ c]

/-! ## The four produced buffers -/

/-- After the first region the pooled table is node pooling of the node features with the transposed weights and the
    bias vectors recast as rows. -/
theorem pooled : (W2 (F := Ideal) m ρ c (Proc.devRef .tc main_v4) : Cert.Spec.Mat 50000 64)
    = Cert.Spec.pool (m ((c.tc : Thread nD τ).loc main_arg0)) (transpose S64x64 [1, 0] (m ((c.tc : Thread nD τ).loc main_arg4)) transposes_S64x64_S64x64_1_0) (shapeCast S1x64 (m ((c.tc : Thread nD τ).loc main_arg5)) shapeCasts_S64_S1x64) (transpose S64x64 [1, 0] (m ((c.tc : Thread nD τ).loc main_arg6)) transposes_S64x64_S64x64_1_0) (shapeCast S1x64 (m ((c.tc : Thread nD τ).loc main_arg7)) shapeCasts_S64_S1x64) := by
  refine ((W2_arr m ρ c 5).trans (Cert.KernelIdeal.RegionPool.final (V1 m ρ) c)).trans ?_
  rw [V1_main_arg0 m ρ c, V1_main_v0 m ρ c, V1_main_v2 m ρ c, V1_main_v1 m ρ c, V1_main_v3 m ρ c]

/-- After the second stretch the gathered features are the rows of the pooled table at the wrapped source indices. -/
theorem gathered (P : FVec Ideal S50000x64 .bf16) (hP : W2 (F := Ideal) m ρ c (Proc.devRef .tc main_v4) = P) :
    W3 (F := Ideal) m ρ c (Proc.devRef .tc main_v11)
      = Host.gather gather_S50000x64_S800000x1_S800000x64_1_0_n_n_0_1_164 P
          (broadcastInDim S800000x1 ![0] bcast_S800000_S800000x1_0
            (select (cmpi .slt (m ((c.tc : Thread nD τ).loc main_arg2)) (broadcastInDim S800000 ![] bcast_S_S800000 (constantI S_ 32 0#32)))
              (addi (m ((c.tc : Thread nD τ).loc main_arg2)) (broadcastInDim S800000 ![] bcast_S_S800000 (constantI S_ 32 50000#32))) (m ((c.tc : Thread nD τ).loc main_arg2)))) := by
  show StableHlo.after hostOps1 (W2 m ρ c) (Proc.devRef .tc main_v11) = _
  after_results
  rw [W2_arg2 m ρ c, hP]

/-- After the second region the message is the gated message of the edge features and the gathered features. -/
theorem message (G : FVec Ideal S800000x64 .bf16) (hG : W3 (F := Ideal) m ρ c (Proc.devRef .tc main_v11) = G) :
    (W4 (F := Ideal) m ρ c (Proc.devRef .tc main_v20) : Cert.Spec.Mat 800000 64)
      = Cert.Spec.edge (m ((c.tc : Thread nD τ).loc main_arg1)) G (transpose S64x64 [1, 0] (m ((c.tc : Thread nD τ).loc main_arg8)) transposes_S64x64_S64x64_1_0) (shapeCast S1x64 (m ((c.tc : Thread nD τ).loc main_arg9)) shapeCasts_S64_S1x64) (transpose S64x64 [1, 0] (m ((c.tc : Thread nD τ).loc main_arg10)) transposes_S64x64_S64x64_1_0) (shapeCast S1x64 (m ((c.tc : Thread nD τ).loc main_arg11)) shapeCasts_S64_S1x64) (transpose S64x64 [1, 0] (m ((c.tc : Thread nD τ).loc main_arg12)) transposes_S64x64_S64x64_1_0) (shapeCast S1x64 (m ((c.tc : Thread nD τ).loc main_arg13)) shapeCasts_S64_S1x64) (transpose S64x64 [1, 0] (m ((c.tc : Thread nD τ).loc main_arg14)) transposes_S64x64_S64x64_1_0) (shapeCast S1x64 (m ((c.tc : Thread nD τ).loc main_arg15)) shapeCasts_S64_S1x64) := by
  refine ((W4_arr m ρ c 10).trans (Cert.KernelIdeal.RegionEdge.final (V3 m ρ) c)).trans ?_
  have e1 : V3 m ρ c main_v11 = G := hG
  rw [V3_main_arg1 m ρ c, e1, V3_main_v12 m ρ c, V3_main_v16 m ρ c, V3_main_v13 m ρ c, V3_main_v17 m ρ c,
    V3_main_v14 m ρ c, V3_main_v18 m ρ c, V3_main_v15 m ρ c, V3_main_v19 m ρ c]

/-- After the third region the result is the normalised spread of the two scatter sums of the message and of its
    square, by the degree column. -/
theorem result (M : FVec Ideal S800000x64 .bf16) (hM : W4 (F := Ideal) m ρ c (Proc.devRef .tc main_v20) = M) :
    (W6 (F := Ideal) m ρ c (Proc.devRef .tc main_v34) : Cert.Spec.Mat 50000 64)
      = Cert.Spec.fin (Host.scatterAdd (F := Ideal) scatter_S50000x64_S800000x1_S800000x64_1_0_0_1
            (broadcastInDim S50000x64 ![] bcast_S_S50000x64 (constant (F := Ideal) S_ .f32 0x00000000#32))
            (broadcastInDim S800000x1 ![0] bcast_S800000_S800000x1_0 (m ((c.tc : Thread nD τ).loc main_arg3)))
            (extf .f32 M bitsLt_bf16_f32))
          (Host.scatterAdd (F := Ideal) scatter_S50000x64_S800000x1_S800000x64_1_0_0_1
            (broadcastInDim S50000x64 ![] bcast_S_S50000x64 (constant (F := Ideal) S_ .f32 0x00000000#32))
            (broadcastInDim S800000x1 ![0] bcast_S800000_S800000x1_0 (m ((c.tc : Thread nD τ).loc main_arg3)))
            (mulf (extf .f32 M bitsLt_bf16_f32) (extf .f32 M bitsLt_bf16_f32)))
          (broadcastInDim S50000x1 ![0] bcast_S50000_S50000x1_0
            (Host.scatterAdd (F := Ideal) scatter_S50000_S800000x1_S800000_n_0_0_1
              (broadcastInDim S50000 ![] bcast_S_S50000 (constant (F := Ideal) S_ .f32 0x00000000#32))
              (broadcastInDim S800000x1 ![0] bcast_S800000_S800000x1_0 (m ((c.tc : Thread nD τ).loc main_arg3)))
              (broadcastInDim S800000 ![] bcast_S_S800000 (constant (F := Ideal) S_ .f32 0x3F800000#32)))) := by
  refine ((W6_arr m ρ c 3).trans (Cert.KernelIdeal.RegionFin.final (V5 m ρ) c)).trans ?_
  rw [V5_main_v29 m ρ c M hM, V5_main_v32 m ρ c M hM, V5_main_v33 m ρ c]

end Cert.KernelIdeal.KValue

end
-- ==== Proof.HostForms.lean ====
/-
  The reference's spellings of the three row-wise maps, as whole arrays on the extended reals.

  jnp spells a linear layer as a `dot_general` plus the bias VECTOR spread over the rows in two steps, the leaky rectifier
  as a comparison with a spread zero and a choice against a spread 0.2 times the operand, the rectifier as a maximum with a
  spread zero, the logistic gate as `1 / (1 + exp (−x))` with the ones spread from a scalar, and the final normalisation
  with the clamped degree vector spread over the columns in two steps. Each spelling is the corresponding map of
  `Spec` with the bias vector recast as a one-row array (and, for the normalisation, the degree vector as a column).
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«122761_j52123723105097_2_alg».proof.Proof.Spec
import proofs.«122761_j52123723105097_2_alg».proof.Proof.LibBcastChain

noncomputable section

namespace Cert.HostForms

open Idealize.ShloMosaic Idealize.ShloMosaic.ValueIdx
open Cert.Spec Cert.Lib.PlainDot Cert.Lib.BcastChain Cert.Lib.BiasRect Cert.Sig

variable {n : ℕ}

/-- The host's `dot_general` with plain dimension numbers is the plain product. -/
theorem dot_host (d : DotDims ⟨2, ![n, 64]⟩ ⟨2, ![64, 64]⟩ ⟨2, ![n, 64]⟩) (hd : d = DotDims.plain n 64 64)
    (l : FVec Ideal ⟨2, ![n, 64]⟩ .f32) (r : FVec Ideal ⟨2, ![64, 64]⟩ .f32) :
    Host.dotGeneral d none l r = rowsByCols l r := by
  simp only [Host.dotGeneral]
  exact dotGeneral_eq d hd none _ l r

/-- The leaky rectifier spelt as a comparison with a spread zero and a choice. -/
theorem leak_host (x : FVec Ideal ⟨2, ![n, 64]⟩ .f32) (h0 : (⟨0, ![]⟩ : Shape).BroadcastsInDim ⟨2, ![n, 64]⟩ ![]) :
    select (cmpf .oge x (broadcastInDim ⟨2, ![n, 64]⟩ ![] h0 (constant (F := Ideal) ⟨0, ![]⟩ .f32 0x00000000#32))) x
        (mulf (broadcastInDim ⟨2, ![n, 64]⟩ ![] h0 (constant (F := Ideal) ⟨0, ![]⟩ .f32 0x3E4CCCCD#32)) x)
      = fun j => leak (x j) := by
  funext j
  rw [select_apply, cmpf_apply, mulf_apply, overAll_apply _ _ h0 j, overAll_apply _ _ h0 j, constant_apply, constant_apply]
  rfl

/-- A linear layer with the bias vector spread over the rows. -/
theorem affine_host (d : DotDims ⟨2, ![n, 64]⟩ ⟨2, ![64, 64]⟩ ⟨2, ![n, 64]⟩) (hd : d = DotDims.plain n 64 64)
    (x : FVec Ideal ⟨2, ![n, 64]⟩ .f32) (W : FVec Ideal ⟨2, ![64, 64]⟩ .f32) (b : FVec Ideal ⟨1, ![64]⟩ .f32)
    (h3 : (⟨1, ![64]⟩ : Shape).BroadcastsInDim ⟨2, ![1, 64]⟩ ![1])
    (h4 : (⟨2, ![1, 64]⟩ : Shape).BroadcastsInDim ⟨2, ![n, 64]⟩ ![0, 1])
    (hc : (⟨1, ![64]⟩ : Shape).ShapeCasts ⟨2, ![1, 64]⟩) :
    addf (Host.dotGeneral d none x W) (broadcastInDim ⟨2, ![n, 64]⟩ ![0, 1] h4 (broadcastInDim ⟨2, ![1, 64]⟩ ![1] h3 b))
      = affine x W (shapeCast ⟨2, ![1, 64]⟩ b hc) := by
  funext j
  obtain ⟨p, q, rfl⟩ : ∃ (p : Fin n) (q : Fin 64), j = ix2 p q := ⟨j 0, j 1, eq_ix2 j⟩
  rw [addf_apply, dot_host d hd, overRows_apply b h3 h4 p q]
  unfold affine
  rw [shapeCast_a_1a_apply b hc (0 : Fin 1) ((ix2 p q) 1)]
  rfl

/-- Node pooling as jnp spells it. -/
theorem pool_host (d : DotDims ⟨2, ![n, 64]⟩ ⟨2, ![64, 64]⟩ ⟨2, ![n, 64]⟩) (hd : d = DotDims.plain n 64 64)
    (X : FVec Ideal ⟨2, ![n, 64]⟩ .f32) (A B : FVec Ideal ⟨2, ![64, 64]⟩ .f32) (a b : FVec Ideal ⟨1, ![64]⟩ .f32)
    (h0 : (⟨0, ![]⟩ : Shape).BroadcastsInDim ⟨2, ![n, 64]⟩ ![])
    (h3 : (⟨1, ![64]⟩ : Shape).BroadcastsInDim ⟨2, ![1, 64]⟩ ![1])
    (h4 : (⟨2, ![1, 64]⟩ : Shape).BroadcastsInDim ⟨2, ![n, 64]⟩ ![0, 1])
    (hc : (⟨1, ![64]⟩ : Shape).ShapeCasts ⟨2, ![1, 64]⟩) :
    addf (Host.dotGeneral d none
        (select (cmpf .oge
            (addf (Host.dotGeneral d none
                (select (cmpf .oge X (broadcastInDim ⟨2, ![n, 64]⟩ ![] h0 (constant (F := Ideal) ⟨0, ![]⟩ .f32 0x00000000#32))) X
                  (mulf (broadcastInDim ⟨2, ![n, 64]⟩ ![] h0 (constant (F := Ideal) ⟨0, ![]⟩ .f32 0x3E4CCCCD#32)) X)) A)
              (broadcastInDim ⟨2, ![n, 64]⟩ ![0, 1] h4 (broadcastInDim ⟨2, ![1, 64]⟩ ![1] h3 a)))
            (broadcastInDim ⟨2, ![n, 64]⟩ ![] h0 (constant (F := Ideal) ⟨0, ![]⟩ .f32 0x00000000#32)))
          (addf (Host.dotGeneral d none
                (select (cmpf .oge X (broadcastInDim ⟨2, ![n, 64]⟩ ![] h0 (constant (F := Ideal) ⟨0, ![]⟩ .f32 0x00000000#32))) X
                  (mulf (broadcastInDim ⟨2, ![n, 64]⟩ ![] h0 (constant (F := Ideal) ⟨0, ![]⟩ .f32 0x3E4CCCCD#32)) X)) A)
              (broadcastInDim ⟨2, ![n, 64]⟩ ![0, 1] h4 (broadcastInDim ⟨2, ![1, 64]⟩ ![1] h3 a)))
          (mulf (broadcastInDim ⟨2, ![n, 64]⟩ ![] h0 (constant (F := Ideal) ⟨0, ![]⟩ .f32 0x3E4CCCCD#32))
            (addf (Host.dotGeneral d none
                (select (cmpf .oge X (broadcastInDim ⟨2, ![n, 64]⟩ ![] h0 (constant (F := Ideal) ⟨0, ![]⟩ .f32 0x00000000#32))) X
                  (mulf (broadcastInDim ⟨2, ![n, 64]⟩ ![] h0 (constant (F := Ideal) ⟨0, ![]⟩ .f32 0x3E4CCCCD#32)) X)) A)
              (broadcastInDim ⟨2, ![n, 64]⟩ ![0, 1] h4 (broadcastInDim ⟨2, ![1, 64]⟩ ![1] h3 a))))) B)
      (broadcastInDim ⟨2, ![n, 64]⟩ ![0, 1] h4 (broadcastInDim ⟨2, ![1, 64]⟩ ![1] h3 b))
      = pool X A (shapeCast ⟨2, ![1, 64]⟩ a hc) B (shapeCast ⟨2, ![1, 64]⟩ b hc) := by
  rw [leak_host X h0, affine_host d hd _ A a h3 h4 hc, leak_host _ h0, affine_host d hd _ B b h3 h4 hc]
  rfl

/-- The two rectified layers as jnp spells them. -/
theorem hidden_host (d : DotDims ⟨2, ![n, 64]⟩ ⟨2, ![64, 64]⟩ ⟨2, ![n, 64]⟩) (hd : d = DotDims.plain n 64 64)
    (E : FVec Ideal ⟨2, ![n, 64]⟩ .f32) (W₁ W₂ : FVec Ideal ⟨2, ![64, 64]⟩ .f32) (b₁ b₂ : FVec Ideal ⟨1, ![64]⟩ .f32)
    (h0 : (⟨0, ![]⟩ : Shape).BroadcastsInDim ⟨2, ![n, 64]⟩ ![])
    (h3 : (⟨1, ![64]⟩ : Shape).BroadcastsInDim ⟨2, ![1, 64]⟩ ![1])
    (h4 : (⟨2, ![1, 64]⟩ : Shape).BroadcastsInDim ⟨2, ![n, 64]⟩ ![0, 1])
    (hc : (⟨1, ![64]⟩ : Shape).ShapeCasts ⟨2, ![1, 64]⟩) :
    maximumf (addf (Host.dotGeneral d none
          (maximumf (addf (Host.dotGeneral d none E W₁) (broadcastInDim ⟨2, ![n, 64]⟩ ![0, 1] h4 (broadcastInDim ⟨2, ![1, 64]⟩ ![1] h3 b₁)))
            (broadcastInDim ⟨2, ![n, 64]⟩ ![] h0 (constant (F := Ideal) ⟨0, ![]⟩ .f32 0x00000000#32))) W₂)
        (broadcastInDim ⟨2, ![n, 64]⟩ ![0, 1] h4 (broadcastInDim ⟨2, ![1, 64]⟩ ![1] h3 b₂)))
      (broadcastInDim ⟨2, ![n, 64]⟩ ![] h0 (constant (F := Ideal) ⟨0, ![]⟩ .f32 0x00000000#32))
      = hidden E W₁ (shapeCast ⟨2, ![1, 64]⟩ b₁ hc) W₂ (shapeCast ⟨2, ![1, 64]⟩ b₂ hc) := by
  rw [dot_host d hd E W₁, host_rectified _ b₁ h3 h4 h0, dot_host d hd _ W₂, host_rectified _ b₂ h3 h4 h0]
  unfold Cert.Spec.hidden
  rw [biasRect_cast _ b₁ hc, biasRect_cast _ b₂ hc]

/-- The gated message from the hidden features as jnp spells it. -/
theorem gate_host (d : DotDims ⟨2, ![n, 64]⟩ ⟨2, ![64, 64]⟩ ⟨2, ![n, 64]⟩) (hd : d = DotDims.plain n 64 64)
    (x G : FVec Ideal ⟨2, ![n, 64]⟩ .f32) (Ws Wc : FVec Ideal ⟨2, ![64, 64]⟩ .f32) (bs bc : FVec Ideal ⟨1, ![64]⟩ .f32)
    (hs : (⟨0, ![]⟩ : Shape).BroadcastsInDim ⟨2, ![n, 64]⟩ ![])
    (h3 : (⟨1, ![64]⟩ : Shape).BroadcastsInDim ⟨2, ![1, 64]⟩ ![1])
    (h4 : (⟨2, ![1, 64]⟩ : Shape).BroadcastsInDim ⟨2, ![n, 64]⟩ ![0, 1])
    (hc : (⟨1, ![64]⟩ : Shape).ShapeCasts ⟨2, ![1, 64]⟩) :
    addf (mulf (Host.divf (F := Ideal) (φ := .f32) (broadcastInDim ⟨2, ![n, 64]⟩ ![] hs (constant (F := Ideal) ⟨0, ![]⟩ .f32 0x3F800000#32))
          (addf (broadcastInDim ⟨2, ![n, 64]⟩ ![] hs (constant (F := Ideal) ⟨0, ![]⟩ .f32 0x3F800000#32))
            (Host.exp (Host.negf (addf (Host.dotGeneral d none x Ws)
              (broadcastInDim ⟨2, ![n, 64]⟩ ![0, 1] h4 (broadcastInDim ⟨2, ![1, 64]⟩ ![1] h3 bs))))))) G)
        (addf (Host.dotGeneral d none x Wc) (broadcastInDim ⟨2, ![n, 64]⟩ ![0, 1] h4 (broadcastInDim ⟨2, ![1, 64]⟩ ![1] h3 bc)))
      = fun j => sigRows (rowsByCols x Ws) (shapeCast ⟨2, ![1, 64]⟩ bs hc) j * G j + affine x Wc (shapeCast ⟨2, ![1, 64]⟩ bc hc) j := by
  rw [dot_host d hd x Ws, ← sigRows_eq_spelt (rowsByCols x Ws) bs hc h3 h4 hs, affine_host d hd x Wc bc h3 h4 hc]
  rfl

/-- The normalisation as jnp spells it, with the degree vector clamped, recast as a column and spread over the columns. -/
theorem fin_host (S₁ S₂ : FVec Ideal ⟨2, ![n, 64]⟩ .f32) (dg : FVec Ideal ⟨1, ![n]⟩ .f32)
    (hv : (⟨0, ![]⟩ : Shape).BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, 64]⟩ ![0, 1])
    (h0 : (⟨0, ![]⟩ : Shape).BroadcastsInDim ⟨2, ![n, 64]⟩ ![]) :
    Host.sqrt (F := Ideal) (φ := .f32) (addf (maximumf (subf
          (Host.divf (F := Ideal) (φ := .f32) S₂ (broadcastInDim ⟨2, ![n, 64]⟩ ![0, 1] h2 (broadcastInDim ⟨2, ![n, 1]⟩ ![0] h1
            (maximumf dg (broadcastInDim ⟨1, ![n]⟩ ![] hv (constant (F := Ideal) ⟨0, ![]⟩ .f32 0x3F800000#32))))))
          (Host.divf (F := Ideal) (φ := .f32) S₁ (broadcastInDim ⟨2, ![n, 64]⟩ ![0, 1] h2 (broadcastInDim ⟨2, ![n, 1]⟩ ![0] h1
            (maximumf dg (broadcastInDim ⟨1, ![n]⟩ ![] hv (constant (F := Ideal) ⟨0, ![]⟩ .f32 0x3F800000#32)))))))
        (broadcastInDim ⟨2, ![n, 64]⟩ ![] h0 (constant (F := Ideal) ⟨0, ![]⟩ .f32 0x00000000#32)))
      (broadcastInDim ⟨2, ![n, 64]⟩ ![] h0 (constant (F := Ideal) ⟨0, ![]⟩ .f32 0x3727C5AC#32)))
      = fin S₁ S₂ (broadcastInDim ⟨2, ![n, 1]⟩ ![0] h1 dg) := by
  funext j
  obtain ⟨p, q, rfl⟩ : ∃ (p : Fin n) (q : Fin 64), j = ix2 p q := ⟨j 0, j 1, eq_ix2 j⟩
  have hD : broadcastInDim ⟨2, ![n, 64]⟩ ![0, 1] h2 (broadcastInDim ⟨2, ![n, 1]⟩ ![0] h1
      (maximumf dg (broadcastInDim ⟨1, ![n]⟩ ![] hv (constant (F := Ideal) ⟨0, ![]⟩ .f32 0x3F800000#32)))) (ix2 p q)
      = max (dg (ix1 p)) (Ideal.ofBits .f32 0x3F800000#32) := by
    rw [overCols_apply _ h1 h2 p q, maximumf_apply, overAll_apply _ _ hv (ix1 p), constant_apply]
  have hC : broadcastInDim ⟨2, ![n, 1]⟩ ![0] h1 dg (ix2 p (0 : Fin 1)) = dg (ix1 p) :=
    broadcastInDim_apply ![0] h1 dg (ix2 p (0 : Fin 1)) (ix1 p) (fun a => by
      match a with
      | ⟨0, _⟩ =>
        show p.val = if n = 1 then 0 else p.val
        split
        · have := p.isLt; omega
        · rfl)
  show Ideal.sqrt (max (Ideal.div (S₂ (ix2 p q)) (broadcastInDim ⟨2, ![n, 64]⟩ ![0, 1] h2 (broadcastInDim ⟨2, ![n, 1]⟩ ![0] h1
            (maximumf dg (broadcastInDim ⟨1, ![n]⟩ ![] hv (constant (F := Ideal) ⟨0, ![]⟩ .f32 0x3F800000#32)))) (ix2 p q))
          - Ideal.div (S₁ (ix2 p q)) (broadcastInDim ⟨2, ![n, 64]⟩ ![0, 1] h2 (broadcastInDim ⟨2, ![n, 1]⟩ ![0] h1
            (maximumf dg (broadcastInDim ⟨1, ![n]⟩ ![] hv (constant (F := Ideal) ⟨0, ![]⟩ .f32 0x3F800000#32)))) (ix2 p q)))
        (broadcastInDim ⟨2, ![n, 64]⟩ ![] h0 (constant (F := Ideal) ⟨0, ![]⟩ .f32 0x00000000#32) (ix2 p q))
      + broadcastInDim ⟨2, ![n, 64]⟩ ![] h0 (constant (F := Ideal) ⟨0, ![]⟩ .f32 0x3727C5AC#32) (ix2 p q))
    = Ideal.sqrt (max (Ideal.div (S₂ (ix2 p q)) (max (broadcastInDim ⟨2, ![n, 1]⟩ ![0] h1 dg (ix2 p (0 : Fin 1))) (Ideal.ofBits .f32 0x3F800000#32))
          - Ideal.div (S₁ (ix2 p q)) (max (broadcastInDim ⟨2, ![n, 1]⟩ ![0] h1 dg (ix2 p (0 : Fin 1))) (Ideal.ofBits .f32 0x3F800000#32)))
        (Ideal.ofBits .f32 0x00000000#32) + Ideal.ofBits .f32 0x3727C5AC#32)
  rw [hD, hC, overAll_apply _ _ h0 (ix2 p q), overAll_apply _ _ h0 (ix2 p q), constant_apply, constant_apply]

end Cert.HostForms

end
-- ==== Proof.RefValue.lean ====
/-
  The reference, stage by stage, as the three row-wise maps.

  The reference computes the pooled table, gathers its rows, computes the message, sums the message and its square into
  the destination rows, counts the degrees and normalises. Read as whole arrays of its arguments:
  * the pooled table (its stage before the gather) is `Spec.pool` of the node features, the transposed weights and the
    bias vectors recast as rows;
  * the hidden edge features are `Spec.hidden`, and the message is `Spec.edge` of the edge features and the gathered rows;
  * the result is `Spec.fin` of the two scatter sums and of the degree vector as a column.
  The gather and the three scatter sums are left as they are: the other program applies the same ones.
-/
import proofs.«122761_j52123723105097_2_alg».proof.Proof.Gen.ReferenceIdeal.Read
import proofs.«122761_j52123723105097_2_alg».proof.Proof.Spec
import proofs.«122761_j52123723105097_2_alg».proof.Proof.HostForms

set_option maxRecDepth 16384

noncomputable section

namespace Cert.ReferenceIdeal.RefValue

open Cert.ReferenceIdeal Cert.ReferenceIdeal.Read Cert.ReferenceIdeal.Facts₀ Cert.ReferenceIdeal.Facts
open Idealize.ShloMosaic Idealize.ShloMosaic.TcCoe Idealize.SL.Sem

variable (x0 : (⟨S50000x64, .f32⟩ : BufTy).Contents (Elt Ideal)) (x1 : (⟨S800000x64, .f32⟩ : BufTy).Contents (Elt Ideal))
    (x2 x3 : (⟨S800000, .i32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x8 : (⟨S64x64, .f32⟩ : BufTy).Contents (Elt Ideal)) (x9 : (⟨S64, .f32⟩ : BufTy).Contents (Elt Ideal))
    (x10 : (⟨S64x64, .f32⟩ : BufTy).Contents (Elt Ideal)) (x11 : (⟨S64, .f32⟩ : BufTy).Contents (Elt Ideal))
    (x12 : (⟨S64x64, .f32⟩ : BufTy).Contents (Elt Ideal)) (x13 : (⟨S64, .f32⟩ : BufTy).Contents (Elt Ideal))
    (x14 : (⟨S64x64, .f32⟩ : BufTy).Contents (Elt Ideal)) (x15 : (⟨S64, .f32⟩ : BufTy).Contents (Elt Ideal))
variable (hc : S64.ShapeCasts S1x64)

/-- The stage the gather reads is node pooling. -/
theorem ref_pool : (val_main_v19 (F := Ideal) x0 x4 x5 x6 x7 : Cert.Spec.Mat 50000 64)
    = Cert.Spec.pool x0 (transpose S64x64 [1, 0] x4 transposes_S64x64_S64x64_1_0) (shapeCast S1x64 x5 hc) (transpose S64x64 [1, 0] x6 transposes_S64x64_S64x64_1_0) (shapeCast S1x64 x7 hc) := by
  simp only [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  exact Cert.HostForms.pool_host dot_S50000x64_S64x64_S50000x64_1_0_0_1_n_n rfl x0 (transpose S64x64 [1, 0] x4 transposes_S64x64_S64x64_1_0) (transpose S64x64 [1, 0] x6 transposes_S64x64_S64x64_1_0) x5 x7
    bcast_S_S50000x64 bcast_S64_S1x64_1 bcast_S1x64_S50000x64_0_1 hc

/-- The edge features after the two rectified layers. -/
theorem ref_hidden : (val_main_v31 (F := Ideal) x1 x8 x9 x10 x11 : Cert.Spec.Mat 800000 64)
    = Cert.Spec.hidden x1 (transpose S64x64 [1, 0] x8 transposes_S64x64_S64x64_1_0) (shapeCast S1x64 x9 hc) (transpose S64x64 [1, 0] x10 transposes_S64x64_S64x64_1_0) (shapeCast S1x64 x11 hc) := by
  simp only [val_main_v31, val_main_v30, val_main_v29, val_main_v28, val_main_v27, val_main_v26, val_main_v25, val_main_v24, val_main_v23, val_main_v22, val_main_v21, val_main_v20, val_main_call2_v0, val_main_call2_cst, val_main_call3_v0, val_main_call3_cst]
  exact Cert.HostForms.hidden_host dot_S800000x64_S64x64_S800000x64_1_0_0_1_n_n rfl x1 (transpose S64x64 [1, 0] x8 transposes_S64x64_S64x64_1_0) (transpose S64x64 [1, 0] x10 transposes_S64x64_S64x64_1_0) x9 x11
    bcast_S_S800000x64 bcast_S64_S1x64_1 bcast_S1x64_S800000x64_0_1 hc

/-- The message is the gated message of the edge features and the gathered rows. -/
theorem ref_edge : (val_main_v56 (F := Ideal) x0 x1 x2 x4 x5 x6 x7 x8 x9 x10 x11 x12 x13 x14 x15 : Cert.Spec.Mat 800000 64)
    = Cert.Spec.edge x1 (val_main_v54 (F := Ideal) x0 x2 x4 x5 x6 x7) (transpose S64x64 [1, 0] x8 transposes_S64x64_S64x64_1_0) (shapeCast S1x64 x9 hc) (transpose S64x64 [1, 0] x10 transposes_S64x64_S64x64_1_0) (shapeCast S1x64 x11 hc) (transpose S64x64 [1, 0] x12 transposes_S64x64_S64x64_1_0) (shapeCast S1x64 x13 hc) (transpose S64x64 [1, 0] x14 transposes_S64x64_S64x64_1_0) (shapeCast S1x64 x15 hc) := by
  simp only [val_main_v56, val_main_v55, val_main_v47, val_main_v46, val_main_v45, val_main_v44, val_main_v43, val_main_v42, val_main_v41, val_main_v40, val_main_v39, val_main_v38, val_main_v37, val_main_v36, val_main_v35, val_main_v34, val_main_v33, val_main_v32, val_main_cst_3, val_main_cst_4]
  rw [Cert.HostForms.gate_host dot_S800000x64_S64x64_S800000x64_1_0_0_1_n_n rfl (val_main_v31 (F := Ideal) x1 x8 x9 x10 x11)
      (val_main_v54 (F := Ideal) x0 x2 x4 x5 x6 x7) (transpose S64x64 [1, 0] x12 transposes_S64x64_S64x64_1_0) (transpose S64x64 [1, 0] x14 transposes_S64x64_S64x64_1_0) x13 x15
      bcast_S_S800000x64 bcast_S64_S1x64_1 bcast_S1x64_S800000x64_0_1 hc,
    ref_hidden x1 x8 x9 x10 x11 hc]
  rfl

/-- The result is the normalised spread of the two scatter sums by the degree vector as a column. -/
theorem ref_fin : (val_main_v79 (F := Ideal) x0 x1 x2 x3 x4 x5 x6 x7 x8 x9 x10 x11 x12 x13 x14 x15 : Cert.Spec.Mat 50000 64)
    = Cert.Spec.fin (val_main_v67 (F := Ideal) x0 x1 x2 x3 x4 x5 x6 x7 x8 x9 x10 x11 x12 x13 x14 x15) (val_main_v72 (F := Ideal) x0 x1 x2 x3 x4 x5 x6 x7 x8 x9 x10 x11 x12 x13 x14 x15)
        (broadcastInDim S50000x1 ![0] bcast_S50000_S50000x1_0 (val_main_v61 (F := Ideal) x3)) := by
  simp only [val_main_v79, val_main_v78, val_main_v77, val_main_v76, val_main_v75, val_main_v74, val_main_v73, val_main_v69, val_main_v68, val_main_v64, val_main_v63, val_main_v62, val_main_cst_8, val_main_cst_11, val_main_call4_v0, val_main_call4_cst]
  exact Cert.HostForms.fin_host (val_main_v67 (F := Ideal) x0 x1 x2 x3 x4 x5 x6 x7 x8 x9 x10 x11 x12 x13 x14 x15) (val_main_v72 (F := Ideal) x0 x1 x2 x3 x4 x5 x6 x7 x8 x9 x10 x11 x12 x13 x14 x15) (val_main_v61 (F := Ideal) x3)
    bcast_S_S50000 bcast_S50000_S50000x1_0 bcast_S50000x1_S50000x64_0_1 bcast_S_S50000x64

end Cert.ReferenceIdeal.RefValue

end
-- ==== Proof.Bridge.lean ====
/-
  The two programs compute one array.

  Both programs are the same composition: node pooling, a gather of the pooled rows at the wrapped source indices, the
  gated message, the scatter sums of the message and of its square into the destination rows with the degree count, and
  the normalisation. The kernel's side has each of its four produced buffers as one of the row-wise maps of what the
  previous buffer holds (gather and scatter sums left as they are); the reference's stages are the same maps of the same
  operands. So, going down the four buffers, what the kernel's run leaves at each is the reference's stage at the same
  arguments, and at the last one the kernel's result is the reference's result.
-/
import proofs.«122761_j52123723105097_2_alg».proof.Defs
import proofs.«122761_j52123723105097_2_alg».proof.Proof.KernelRun
import proofs.«122761_j52123723105097_2_alg».proof.Proof.KernelValue
import proofs.«122761_j52123723105097_2_alg».proof.Proof.RefValue
import proofs.«122761_j52123723105097_2_alg».proof.Proof.Gen.ReferenceIdeal.Read

set_option maxRecDepth 16384

noncomputable section

namespace Cert.Bridge

open Idealize.ShloMosaic Idealize.ShloMosaic.TcCoe Idealize.SL.Sem
open Cert.KernelIdeal.Gen Cert.ReferenceIdeal.Read

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- The pooled table is the reference's stage before its gather. -/
theorem same_pooled : (W2 (F := Ideal) m ρ c (Proc.devRef .tc Cert.KernelIdeal.main_v4) : Cert.Spec.Mat 50000 64)
    = val_main_v19 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) :=
  (Cert.KernelIdeal.KValue.pooled m ρ c).trans (Cert.ReferenceIdeal.RefValue.ref_pool (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) Cert.KernelIdeal.Facts₀.shapeCasts_S64_S1x64).symm

/-- The gathered features are the reference's gathered rows. -/
theorem same_gathered : (W3 (F := Ideal) m ρ c (Proc.devRef .tc Cert.KernelIdeal.main_v11) : Cert.Spec.Mat 800000 64)
    = val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  refine (Cert.KernelIdeal.KValue.gathered m ρ c (val_main_v19 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (same_pooled m ρ c)).trans ?_
  simp only [val_main_v54, val_main_v53, val_main_v52, val_main_v51, val_main_v50, val_main_v49, val_main_v48, val_main_c, val_main_c_5]
  rfl

/-- The message is the reference's message. -/
theorem same_message : (W4 (F := Ideal) m ρ c (Proc.devRef .tc Cert.KernelIdeal.main_v20) : Cert.Spec.Mat 800000 64)
    = val_main_v56 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) :=
  (Cert.KernelIdeal.KValue.message m ρ c (val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (same_gathered m ρ c)).trans
    (Cert.ReferenceIdeal.RefValue.ref_edge (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) Cert.KernelIdeal.Facts₀.shapeCasts_S64_S1x64).symm

/-- The result is the reference's result. -/
theorem same_result : (W6 (F := Ideal) m ρ c (Proc.devRef .tc Cert.KernelIdeal.main_v34) : Cert.Spec.Mat 50000 64)
    = val_main_v79 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) := by
  refine (Cert.KernelIdeal.KValue.result m ρ c (val_main_v56 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) (same_message m ρ c)).trans ?_
  refine Eq.trans ?_ (Cert.ReferenceIdeal.RefValue.ref_fin (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).symm
  simp only [val_main_v67, val_main_v66, val_main_v65, val_main_cst_9, val_main_v72, val_main_v71, val_main_v70, val_main_cst_10, val_main_v57, val_main_v61, val_main_v60, val_main_v59, val_main_v58, val_main_cst_6, val_main_cst_7]
  rfl

end Cert.Bridge

end
-- ==== Proof.lean ====
/-
  The certificate: a message-passing layer computed by three kernels among host operations, against its plain reference.

  The layer pools the node features (two linear layers with leaky rectifiers), gathers the pooled rows at the edges' source
  nodes, forms a gated message per edge (two rectified layers, then a logistic gate times the gathered row plus a shift),
  sums the messages and their squares into the destination nodes with the degree count, and returns
  `√(max (S₂/max d 1 − S₁/max d 1) 0 + ε)`. The kernel program does the pooling, the message and the normalisation in
  three regions walked block of rows by block of rows, storing two intermediate arrays in a narrow float format; on the
  extended reals a change of format is the identity, a product into a zero accumulator is the plain product, and each
  region's result is a row-wise map of its operands, so the blocks assemble into the same whole arrays the reference
  computes, and the gather and the scatter sums are the same operations on both sides.

  * The three frames: the two kernel programs' runs are the several-regions run of their segments; the reference's is its
    run with the result dropped.
  * The idealized kernel is the kernel's own text read on the extended reals: nothing was rewritten.
  * The two idealized programs end with equal results: the kernel's last boundary at the result buffer (`Run.run_result`) is
    the reference's last stage at the same arguments (`Bridge.same_result`).
-/
import proofs.«122761_j52123723105097_2_alg».proof.Defs
import proofs.«122761_j52123723105097_2_alg».proof.Proof.Gen.Kernel
import proofs.«122761_j52123723105097_2_alg».proof.Proof.Gen.Kernel.Skeleton
import proofs.«122761_j52123723105097_2_alg».proof.Proof.Gen.Kernel.Launch
import proofs.«122761_j52123723105097_2_alg».proof.Proof.Gen.Kernel.Points
import proofs.«122761_j52123723105097_2_alg».proof.Proof.Gen.Kernel.Frame
import proofs.«122761_j52123723105097_2_alg».proof.Proof.Gen.KernelIdeal
import proofs.«122761_j52123723105097_2_alg».proof.Proof.Gen.KernelIdeal.Skeleton
import proofs.«122761_j52123723105097_2_alg».proof.Proof.Gen.KernelIdeal.Launch
import proofs.«122761_j52123723105097_2_alg».proof.Proof.Gen.KernelIdeal.Points
import proofs.«122761_j52123723105097_2_alg».proof.Proof.Gen.KernelIdeal.Frame
import proofs.«122761_j52123723105097_2_alg».proof.Proof.Gen.ReferenceIdeal
import proofs.«122761_j52123723105097_2_alg».proof.Proof.Gen.ReferenceIdeal.Run
import proofs.«122761_j52123723105097_2_alg».proof.Proof.Gen.ReferenceIdeal.Read
import proofs.«122761_j52123723105097_2_alg».proof.Proof.Gen.Pre_finite_inputs
import proofs.«122761_j52123723105097_2_alg».proof.Proof.KernelRun
import proofs.«122761_j52123723105097_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Run from memories that agree on the arguments, both programs end with the same result array: the kernel's is what its
    last boundary holds at the result buffer, and that is the reference's last stage at the same argument arrays. -/
theorem algebraic : Cert.algebraic_KernelIdeal_ReferenceIdeal := by
  intro m ρ m' ρ' _ hagree
  refine ⟨fun c => Cert.KernelIdeal.Gen.W6 (F := Ideal) m ρ c (Proc.devRef .tc Cert.KernelIdeal.main_v34),
    Cert.KernelIdeal.Run.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15⟩ := hagree c
  rw [Cert.ReferenceIdeal.Read.val_main_v79_eq, h0, h1, h2, h3, h4, h5, h6, h7, h8, h9, h10, h11, h12, h13, h14, h15]
  exact (Cert.Bridge.same_result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
